-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S8x2048 : Shape := ⟨2, ![8, 2048]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg4 : FVec F S8x2048 .f32) (main_arg5 : FVec F S8x2048 .f32) (main_v13 : IVec S_ 1) (main_v16 : IVec S8x2048 1) : IVec S_ 1 :=
  let main_c_5 : IVec S_ 1 := constantI S_ 1 1#1
  let main_v17 : IVec S_ 1 := (fun x v => Host.reduce IntOp.andi x v reducesTo_S8x2048_S_d0_1 h_S_) main_v16 main_c_5
  let main_v18 : IVec S_ 1 := andi main_v13 main_v17
  let main_v19 : FVec F S8x2048 .f32 := Host.absf main_arg4
  let main_cst_6 : FVec F S_ .f32 := constant S_ .f32 0x7F800000#32
  let main_v20 : FVec F S8x2048 .f32 := broadcastInDim S8x2048 ![] bcast_S_S8x2048 main_cst_6
  let main_v21 : IVec S8x2048 1 := cmpf .olt main_v19 main_v20
  let main_c_7 : IVec S_ 1 := constantI S_ 1 1#1
  let main_v22 : IVec S_ 1 := (fun x v => Host.reduce IntOp.andi x v reducesTo_S8x2048_S_d0_1 h_S_) main_v21 main_c_7
  let main_v23 : IVec S_ 1 := andi main_v18 main_v22
  let main_v24 : FVec F S8x2048 .f32 := Host.absf main_arg5
  let main_cst_8 : FVec F S_ .f32 := constant S_ .f32 0x7F800000#32
  let main_v25 : FVec F S8x2048 .f32 := broadcastInDim S8x2048 ![] bcast_S_S8x2048 main_cst_8
  let main_v26 : IVec S8x2048 1 := cmpf .olt main_v24 main_v25
  let main_c_9 : IVec S_ 1 := constantI S_ 1 1#1
  let main_v27 : IVec S_ 1 := (fun x v => Host.reduce IntOp.andi x v reducesTo_S8x2048_S_d0_1 h_S_) main_v26 main_c_9
  let main_v28 : IVec S_ 1 := andi main_v23 main_v27
  main_v28

def fn {F : FTy → Type} [FloatOps F] (main_arg0 : FVec F S8x2048x64 .f32) (main_arg1 : FVec F S8x2048x64 .f32) (main_arg2 : FVec F S8x2048x64 .f32) (main_arg3 : FVec F S8x2048 .f32) (main_arg4 : FVec F S8x2048 .f32) (main_arg5 : FVec F S8x2048 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x64 .f32 := Host.absf main_arg1
  let main_cst_0 : FVec F S_ .f32 := constant S_ .f32 0x7F800000#32
  let main_v5 : FVec F S8x2048x64 .f32 := broadcastInDim S8x2048x64 ![] bcast_S_S8x2048x64 main_cst_0
  let main_v6 : IVec S8x2048x64 1 := cmpf .olt main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  let main_v9 : FVec F S8x2048x64 .f32 := Host.absf main_arg2
  let main_cst_2 : FVec F S_ .f32 := constant S_ .f32 0x7F800000#32
  let main_v10 : FVec F S8x2048x64 .f32 := broadcastInDim S8x2048x64 ![] bcast_S_S8x2048x64 main_cst_2
  let main_v11 : IVec S8x2048x64 1 := cmpf .olt main_v9 main_v10
  let main_c_3 : IVec S_ 1 := constantI S_ 1 1#1
  let main_v12 : IVec S_ 1 := (fun x v => Host.reduce IntOp.andi x v reducesTo_S8x2048x64_S_d0_1_2 h_S_) main_v11 main_c_3
  let main_v13 : IVec S_ 1 := andi main_v8 main_v12
  let main_v14 : FVec F S8x2048 .f32 := Host.absf main_arg3
  let main_cst_4 : FVec F S_ .f32 := constant S_ .f32 0x7F800000#32
  let main_v15 : FVec F S8x2048 .f32 := broadcastInDim S8x2048 ![] bcast_S_S8x2048 main_cst_4
  let main_v16 : IVec S8x2048 1 := cmpf .olt main_v14 main_v15
  fn_part1 (F := F) main_arg4 main_arg5 main_v13 main_v16
-- ==== Kernel.lean ====
abbrev S8x2048x64 : Shape := ⟨3, ![8, 2048, 64]⟩
abbrev S8x2048 : Shape := ⟨2, ![8, 2048]⟩
abbrev S8x2048x1 : Shape := ⟨3, ![8, 2048, 1]⟩
abbrev S8x1x2048 : Shape := ⟨3, ![8, 1, 2048]⟩
abbrev S1x2048x64 : Shape := ⟨3, ![1, 2048, 64]⟩
abbrev S1x512x64 : Shape := ⟨3, ![1, 512, 64]⟩
abbrev S1x2048x1 : Shape := ⟨3, ![1, 2048, 1]⟩
abbrev S1x1x512 : Shape := ⟨3, ![1, 1, 512]⟩
abbrev S1x512x1 : Shape := ⟨3, ![1, 512, 1]⟩
abbrev S2048x64 : Shape := ⟨2, ![2048, 64]⟩
abbrev S512x64 : Shape := ⟨2, ![512, 64]⟩
abbrev S2048x1 : Shape := ⟨2, ![2048, 1]⟩
abbrev S1x512 : Shape := ⟨2, ![1, 512]⟩
abbrev S512x1 : Shape := ⟨2, ![512, 1]⟩
abbrev S2048x512 : Shape := ⟨2, ![2048, 512]⟩
abbrev S2048 : Shape := ⟨1, ![2048]⟩

abbrev nBuf : Space → Nat
  | .hbm => 10
  | .vmem => 17
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S8x2048, .f32⟩
  | .hbm, ⟨4, _⟩ => ⟨S8x2048, .f32⟩
  | .hbm, ⟨5, _⟩ => ⟨S8x2048, .f32⟩
  | .hbm, ⟨6, _⟩ => ⟨S8x2048x1, .f32⟩
  | .hbm, ⟨7, _⟩ => ⟨S8x1x2048, .f32⟩
  | .hbm, ⟨8, _⟩ => ⟨S8x2048x1, .f32⟩
  | .hbm, ⟨9, _⟩ => ⟨S8x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x512x64, .f32⟩
  | .local _ .vmem, ⟨3, _⟩ => ⟨S1x512x64, .f32⟩
  | .local _ .vmem, ⟨4, _⟩ => ⟨S1x512x64, .f32⟩
  | .local _ .vmem, ⟨5, _⟩ => ⟨S1x512x64, .f32⟩
  | .local _ .vmem, ⟨6, _⟩ => ⟨S1x2048x1, .f32⟩
  | .local _ .vmem, ⟨7, _⟩ => ⟨S1x2048x1, .f32⟩
  | .local _ .vmem, ⟨8, _⟩ => ⟨S1x1x512, .f32⟩
  | .local _ .vmem, ⟨9, _⟩ => ⟨S1x1x512, .f32⟩
  | .local _ .vmem, ⟨10, _⟩ => ⟨S1x512x1, .f32⟩
  | .local _ .vmem, ⟨11, _⟩ => ⟨S1x512x1, .f32⟩
  | .local _ .vmem, ⟨12, _⟩ => ⟨S1x2048x64, .f32⟩
  | .local _ .vmem, ⟨13, _⟩ => ⟨S1x2048x64, .f32⟩
  | .local _ .vmem, ⟨14, _⟩ => ⟨S1x2048x1, .f32⟩
  | .local _ .vmem, ⟨15, _⟩ => ⟨S1x2048x1, .f32⟩
  | .local _ .vmem, ⟨16, _⟩ => ⟨S1x2048x64, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v63 : BitVec 1 := Scalar.cmpi .eq arg1 c3_i32
  let v64 : BitVec 32 := Scalar.extui v63
  let c0_i32_42 : BitVec 32 := 0#32
  let v65 : BitVec 1 := Scalar.cmpi .ne v64 c0_i32_42
  v65

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S8x2048_S8x2048x1 : S8x2048.ShapeCasts S8x2048x1
  shapeCasts_S8x2048_S8x1x2048 : S8x2048.ShapeCasts S8x1x2048
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S1x2048x1 : S1x2048x1.ShapeCasts S1x2048x1
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S1x2048x64 : S1x2048x64.ShapeCasts S1x2048x64
  shapeCasts_S1x2048x64_S2048x64 : S1x2048x64.ShapeCasts S2048x64
  bitsLt_bf16_f32 : FTy.bits .bf16 < FTy.bits .f32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S1x2048x1_S2048x1 : S1x2048x1.ShapeCasts S2048x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S2048x1_S2048x512 : S2048x1.Broadcasts S2048x512
  broadcasts_S1x512_S2048x512 : S1x512.Broadcasts S2048x512
  reduces_S2048x512_S2048 : S2048x512.Reduces [1] S2048
  shapeCasts_S2048_S2048x1 : S2048.ShapeCasts S2048x1
  shapeCasts_S2048x1_S1x2048x1 : S2048x1.ShapeCasts S1x2048x1
  broadcasts_S512x1_S512x64 : S512x1.Broadcasts S512x64
  broadcasts_S2048x1_S2048x64 : S2048x1.Broadcasts S2048x64
  shapeCasts_S2048x64_S1x2048x64 : S2048x64.ShapeCasts S1x2048x64
  dot_S2048x64_S512x64_S2048x512_1_1_0_0_n_n_wf : DotDims.WF S2048x64 S512x64 S2048x512 [1] [1] [0] [0] [] []
  dot_S2048x512_S512x64_S2048x64_1_0_0_1_n_n_wf : DotDims.WF S2048x512 S512x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S8x2048x64.size a
  hwx0_0 : ∀ i : grid0.Coords, EltTy.bits .f32 = 32 ∨ (Rect.block (s := S8x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S8x2048x64.size a
  hwx0_1 : ∀ i : grid0.Coords, EltTy.bits .f32 = 32 ∨ (Rect.block (s := S8x2048x64) S1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S8x2048x64.size a
  hwx0_2 : ∀ i : grid0.Coords, EltTy.bits .f32 = 32 ∨ (Rect.block (s := S8x2048x64) S1x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1.size a ≤ S8x2048x1.size a
  hwx0_3 : ∀ i : grid0.Coords, EltTy.bits .f32 = 32 ∨ (Rect.block (s := S8x2048x1) S1x2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S8x1x2048.size a
  hwx0_4 : ∀ i : grid0.Coords, EltTy.bits .f32 = 32 ∨ (Rect.block (s := S8x1x2048) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S8x2048x1.size a
  hwx0_5 : ∀ i : grid0.Coords, EltTy.bits .f32 = 32 ∨ (Rect.block (s := S8x2048x1) S1x512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x64.size a ≤ S8x2048x64.size a
  hwx0_6 : ∀ i : grid0.Coords, EltTy.bits .f32 = 32 ∨ (Rect.block (s := S8x2048x64) S1x2048x64.size (cc0_transform_6 i) (hinb0_6 i)).WholeWords (EltTy.packing .f32)

variable [Facts₀]

def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x2048x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x2048x64 : Shape := ⟨3, ![8, 2048, 64]⟩
abbrev S8x2048 : Shape := ⟨2, ![8, 2048]⟩
abbrev S_ : Shape := ⟨0, ![]⟩
abbrev S8x2048x2048 : Shape := ⟨3, ![8, 2048, 2048]⟩
abbrev S8x2048x1 : Shape := ⟨3, ![8, 2048, 1]⟩
abbrev S8x1x2048 : Shape := ⟨3, ![8, 1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S8x2048, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S8x2048x1, .f32⟩
  | .hbm, ⟨12, _⟩ => ⟨S8x1x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S8x2048x1, .f32⟩
  | .hbm, ⟨38, _⟩ => ⟨S8x2048x64, .f32⟩
  | .hbm, ⟨39, _⟩ => ⟨S8x2048x64, .f32⟩
  | .hbm, ⟨40, _⟩ => ⟨S8x2048x64, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048x1_S8x2048x64_0_1_2 : S8x2048x1.BroadcastsInDim S8x2048x64 (![0, 1, 2] : Fin 3 → Fin S8x2048x64.rank)
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.AttnSpec.lean ====
/-
  The running softmax statistics of one row of attention scores, over the extended reals.

  A row of scores is cut into blocks indexed by the naturals; block "k" is a family "s k : C → EReal". Passing the
  blocks in order one keeps three numbers: the running maximum "m" (from "⊥"), the normaliser "l" (from "0") and,
  for a family of values "v k : C → EReal", the weighted sum "a" (from "0"). Passing a block with the maximum
  "m' = max m (max of the block)", what was accumulated under "m" is rescaled by "exp (m - m')" and the block's own
  terms "exp (s - m')" are added. The output after "k" blocks is "a * (1 / l)".

  Nothing here mentions a program or an array.
-/
import Idealize.ShloMosaic.PureOps.Ideal

noncomputable section

open scoped BigOperators

namespace Cert.AttnSpec

open Idealize.ShloMosaic

variable {C : Type} [Fintype C]

/-- The largest score of a block ("⊥" for an empty block). -/
def blockMax (s : C → EReal) : EReal := Finset.univ.fold max ⊥ s

/-- The running maximum after a block. -/
def mNext (m : EReal) (sk : C → EReal) : EReal := max m (blockMax sk)

/-- The factor by which what was accumulated under the old maximum is rescaled. -/
def alpha (m : EReal) (sk : C → EReal) : EReal := Ideal.exp (m - mNext m sk)

/-- A score's weight under the new maximum. -/
def weight (m : EReal) (sk : C → EReal) (c : C) : EReal := Ideal.exp (sk c - mNext m sk)

/-- The normaliser after a block. -/
def lNext (m l : EReal) (sk : C → EReal) : EReal := alpha m sk * l + ∑ c, weight m sk c

/-- The weighted sum after a block. -/
def accNext (m a : EReal) (sk vk : C → EReal) : EReal := alpha m sk * a + ∑ c, weight m sk c * vk c

/-- The running maximum and normaliser after "k" blocks. -/
def st (s : ℕ → C → EReal) : ℕ → EReal × EReal
  | 0 => (⊥, 0)
  | k + 1 => (mNext (st s k).1 (s k), lNext (st s k).1 (st s k).2 (s k))

/-- The running weighted sum after "k" blocks. -/
def acc (s v : ℕ → C → EReal) : ℕ → EReal
  | 0 => 0
  | k + 1 => accNext (st s k).1 (acc s v k) (s k) (v k)

/-- The output after "k" blocks: the weighted sum times the reciprocal of the normaliser. -/
def out (s v : ℕ → C → EReal) (k : ℕ) : EReal := acc s v k * Ideal.div 1 (st s k).2

end Cert.AttnSpec

end
-- ==== Proof.AttnValue.lean ====
/-
  Masked attention with an additive padding penalty, as one function of the six argument arrays.

  For a batch "b", a query row "q" and a key row "k" the score is the dot product of the query and key rows times
  one eighth, plus "(1 - mq[b,q] * mk[b,k])" times minus 10^9. The value row "k" is masked by "mv[b,k]". The 2048 key
  rows are cut into four blocks of 512; the result at "(b, q, d)" is the running weighted sum of "AttnSpec" over these
  four blocks, divided by the running normaliser. (That this is the softmax-weighted sum of the masked values is a
  separate law, which needs finite scores; the definition does not.)
-/
import proofs.«166922_j87754771792527_2_alg».proof.Proof.AttnSpec
import Idealize.ShloMosaic.Lib.ValueIdx

noncomputable section

open scoped BigOperators

namespace Cert.AttnValue

open Idealize.ShloMosaic Idealize.ShloMosaic.ValueIdx Cert.AttnSpec

/-- An array of shape [8, 2048, 64] and one of shape [8, 2048], over the extended reals. -/
abbrev Arr3 : Type := (⟨3, ![8, 2048, 64]⟩ : Shape).Idx → EReal
abbrev Arr2 : Type := (⟨2, ![8, 2048]⟩ : Shape).Idx → EReal

/-- One eighth, one, and minus 10^9, as the binary words both programs print. -/
abbrev cEighth : EReal := Ideal.ofBits .f32 0x3E000000#32
abbrev cOne : EReal := Ideal.ofBits .f32 0x3F800000#32
abbrev cNeg : EReal := Ideal.ofBits .f32 0xCE6E6B28#32

/-- The key row at place "k" of block "j". -/
def keyPos (j : Fin 4) (k : Fin 512) : Fin 2048 := ⟨512 * j.val + k.val, by have := j.isLt; have := k.isLt; omega⟩

/-- The score of query row "q" against key row "k" in batch "b". -/
def score (Q K : Arr3) (mq mk : Arr2) (b : Fin 8) (q k : Fin 2048) : EReal :=
  (∑ d : Fin 64, Q (ix3 b q d) * K (ix3 b k d)) * cEighth + (cOne - mq (ix2 b q) * mk (ix2 b k)) * cNeg

/-- The masked value row "k", column "d", in batch "b". -/
def value (V : Arr3) (mv : Arr2) (b : Fin 8) (k : Fin 2048) (d : Fin 64) : EReal := V (ix3 b k d) * mv (ix2 b k)

/-- Row "q"'s scores block by block: four blocks of 512, and "⊥" after them. -/
def blockScores (Q K : Arr3) (mq mk : Arr2) (b : Fin 8) (q : Fin 2048) : ℕ → Fin 512 → EReal :=
  fun j k => if h : j < 4 then score Q K mq mk b q (keyPos ⟨j, h⟩ k) else ⊥

/-- Column "d" of the masked values block by block, and "0" after the four blocks. -/
def blockValues (V : Arr3) (mv : Arr2) (b : Fin 8) (d : Fin 64) : ℕ → Fin 512 → EReal :=
  fun j k => if h : j < 4 then value V mv b (keyPos ⟨j, h⟩ k) d else 0

/-- The attention output: the weighted sum after the four key blocks over the normaliser after them. -/
def attn (Q K V : Arr3) (mq mk mv : Arr2) : Arr3 := fun i =>
  Ideal.div (acc (blockScores Q K mq mk (i 0) (i 1)) (blockValues V mv (i 0) (i 2)) 4)
    (st (blockScores Q K mq mk (i 0) (i 1)) 4).2

/-! ## The same attention written with one softmax over the whole row -/

/-- Minus infinity and zero, as the binary words the reductions start from. -/
abbrev cBot : EReal := Ideal.ofBits .f32 0xFF800000#32
abbrev cZero : EReal := Ideal.ofBits .f32 0x00000000#32

/-- The score with the quotient by the square root of 64 in place of the product with one eighth. -/
def rowScore (Q K : Arr3) (mq mk : Arr2) (b : Fin 8) (q k : Fin 2048) : EReal :=
  Ideal.div (∑ d : Fin 64, Q (ix3 b q d) * K (ix3 b k d)) (Ideal.sqrt (Ideal.ofBits .f32 0x42800000#32))
    + (cOne - mq (ix2 b q) * mk (ix2 b k)) * cNeg

/-- The largest score of a row, from minus infinity. -/
def rowMax (Q K : Arr3) (mq mk : Arr2) (b : Fin 8) (q : Fin 2048) : EReal :=
  max cBot (Finset.univ.fold max cBot (fun k : Fin 2048 => rowScore Q K mq mk b q k))

/-- The sum of the row's exponentials under its maximum, from zero. -/
def rowSum (Q K : Arr3) (mq mk : Arr2) (b : Fin 8) (q : Fin 2048) : EReal :=
  cZero + ∑ k : Fin 2048, Ideal.exp (rowScore Q K mq mk b q k - rowMax Q K mq mk b q)

/-- Softmax over the whole row, then the weighted sum of the masked values. -/
def rowAttn (Q K V : Arr3) (mq mk mv : Arr2) : Arr3 := fun i =>
  ∑ k : Fin 2048,
    Ideal.div (Ideal.exp (rowScore Q K mq mk (i 0) (i 1) k - rowMax Q K mq mk (i 0) (i 1))) (rowSum Q K mq mk (i 0) (i 1))
      * value V mv (i 0) k (i 2)

end Cert.AttnValue

end
-- ==== Proof.RefRow.lean ====
/-
  The reference program computes masked attention with one softmax over each whole row of 2048 keys.

  For a batch "b", a query row "q" and a key row "k" the reference first forms the score: the dot product of the
  query and key rows divided by the square root of 64, plus "(1 - mq[b,q] * mk[b,k])" times minus 10^9. It then takes
  the largest score of the row (a maximum over the 2048 keys started at minus infinity, and once more the maximum with
  minus infinity), subtracts it, exponentiates, sums the 2048 exponentials from zero, divides each exponential by that
  sum, and contracts the quotients against the value rows masked by "mv[b,k]".

  Each of these stages is read here at explicit coordinates "(b, q, k)", "(b, q)" or "(b, k, d)" and identified with the
  matching piece of the specification ("rowScore", "rowMax", "rowSum", "value"); the last theorem assembles them into
  the equality of the reference's result with "rowAttn" as arrays.
-/
import proofs.«166922_j87754771792527_2_alg».proof.Proof.Gen.ReferenceIdeal.Read
import proofs.«166922_j87754771792527_2_alg».proof.Proof.AttnValue

noncomputable section

open scoped BigOperators

namespace Cert.ReferenceIdeal.RefRow

open Cert.ReferenceIdeal Cert.ReferenceIdeal.Gen Cert.ReferenceIdeal.Read Idealize.ShloMosaic Idealize.ShloMosaic.ValueIdx Cert.AttnValue

/-- Arrays of shape [8, 2048, 64] and [8, 2048] over the extended reals, as the reference's stages take them. -/
abbrev A3 : Type := (⟨S8x2048x64, .f32⟩ : BufTy).Contents (Elt Ideal)
abbrev A2 : Type := (⟨S8x2048, .f32⟩ : BufTy).Contents (Elt Ideal)

/-! ## Where each stage reads its operands -/

/-- The score at (b, q, k) contracts query row (b, q, ·) ... -/
theorem lidx1 (b : Fin 8) (q k : Fin 2048) (d : Fin 64) : lidx_main_v1 (ix3 b q k) d = ix3 b q d :=
  funext fun a => Fin.ext (by match a with | ⟨0, _⟩ => rfl | ⟨1, _⟩ => rfl | ⟨2, _⟩ => rfl)
/-- ... against key row (b, k, ·). -/
theorem ridx1 (b : Fin 8) (q k : Fin 2048) (d : Fin 64) : ridx_main_v1 (ix3 b q k) d = ix3 b k d :=
  funext fun a => Fin.ext (by match a with | ⟨0, _⟩ => rfl | ⟨1, _⟩ => rfl | ⟨2, _⟩ => rfl)
/-- The query mask spread over the keys is read at (b, q). -/
theorem idx46 (b : Fin 8) (q k : Fin 2048) : idx_main_v4 (idx_main_v6 (ix3 b q k)) = ix2 b q :=
  funext fun a => Fin.ext (by match a with | ⟨0, _⟩ => rfl | ⟨1, _⟩ => rfl)
/-- The key mask spread over the queries is read at (b, k). -/
theorem idx57 (b : Fin 8) (q k : Fin 2048) : idx_main_v5 (idx_main_v7 (ix3 b q k)) = ix2 b k :=
  funext fun a => Fin.ext (by match a with | ⟨0, _⟩ => rfl | ⟨1, _⟩ => rfl)
/-- The row maximum spread over the keys is read at (b, q). -/
theorem idx1718 (b : Fin 8) (q k : Fin 2048) : idx_main_v17 (idx_main_v18 (ix3 b q k)) = ix2 b q :=
  funext fun a => Fin.ext (by match a with | ⟨0, _⟩ => rfl | ⟨1, _⟩ => rfl)
/-- The sum over the keys at (b, q) runs over the entries (b, q, k). -/
theorem idx21 (b : Fin 8) (q k : Fin 2048) : idx_main_v21 (ix2 b q) k = ix3 b q k :=
  funext fun a => Fin.ext (by match a with | ⟨0, _⟩ => rfl | ⟨1, _⟩ => rfl | ⟨2, _⟩ => rfl)
/-- The row sum spread over the keys is read at (b, q). -/
theorem idx2223 (b : Fin 8) (q k : Fin 2048) : idx_main_v22 (idx_main_v23 (ix3 b q k)) = ix2 b q :=
  funext fun a => Fin.ext (by match a with | ⟨0, _⟩ => rfl | ⟨1, _⟩ => rfl)
/-- The value mask spread over the 64 columns is read at (b, k). -/
theorem idx2526 (b : Fin 8) (k : Fin 2048) (d : Fin 64) : idx_main_v25 (idx_main_v26 (ix3 b k d)) = ix2 b k :=
  funext fun a => Fin.ext (by match a with | ⟨0, _⟩ => rfl | ⟨1, _⟩ => rfl)
/-- The result at (b, q, d) contracts the weights (b, q, ·) ... -/
theorem lidx28 (b : Fin 8) (q k : Fin 2048) (d : Fin 64) : lidx_main_v28 (ix3 b q d) k = ix3 b q k :=
  funext fun a => Fin.ext (by match a with | ⟨0, _⟩ => rfl | ⟨1, _⟩ => rfl | ⟨2, _⟩ => rfl)
/-- ... against column d of the masked values, (b, ·, d). -/
theorem ridx28 (b : Fin 8) (q k : Fin 2048) (d : Fin 64) : ridx_main_v28 (ix3 b q d) k = ix3 b k d :=
  funext fun a => Fin.ext (by match a with | ⟨0, _⟩ => rfl | ⟨1, _⟩ => rfl | ⟨2, _⟩ => rfl)

/-! ## The stages -/

/-- The reference's score at (b, q, k): the dot product over the square root of 64, plus the padding penalty. -/
theorem v13_eq (x0 x1 : A3) (x3 x4 : A2) (b : Fin 8) (q k : Fin 2048) :
    val_main_v13 (F := Ideal) x0 x1 x3 x4 (ix3 b q k) = rowScore x0 x1 x3 x4 b q k := by
  rw [val_main_v13_apply, val_main_v3_apply, val_main_v1_apply, val_main_v2_apply, val_main_v0_apply, val_main_cst_apply,
    val_main_v12_apply, val_main_v10_apply, val_main_v9_apply, val_main_cst_0_apply, val_main_v8_apply, val_main_v6_apply,
    val_main_v4_apply, val_main_v7_apply, val_main_v5_apply, val_main_v11_apply, val_main_cst_1_apply]
  simp only [lidx1, ridx1, idx46, idx57, Ideal.addf_def, Ideal.subf_def, Ideal.mulf_def, Ideal.hostDivf_def,
    Ideal.hostUnary_sqrt_def, Ideal.ofBits_def]
  rfl

/-- The (batch, query) index with the key coordinate k put back on the third axis is (b, q, k). -/
theorem lift_ix (h : S8x2048x2048.Reduces [2] S8x2048) (b : Fin 8) (q : Fin 2048) (k : Fin (S8x2048x2048.size 2)) :
    h.lift (ix2 b q) k = ix3 b q (⟨k.val, k.isLt⟩ : Fin 2048) := by
  funext c; apply Fin.ext
  fin_cases c <;> rfl

/-- The reduction by maximum over the key axis, at (b, q): the maximum of the row's 2048 scores, from minus infinity.
    (A reduction by a commutative and associative operation over one axis is the fold over that axis's coordinates.) -/
theorem v14_eq (x0 x1 : A3) (x3 x4 : A2) (b : Fin 8) (q : Fin 2048) :
    val_main_v14 (F := Ideal) x0 x1 x3 x4 (ix2 b q)
      = Finset.univ.fold max cBot (fun k : Fin 2048 => rowScore x0 x1 x3 x4 b q k) := by
  unfold val_main_v14
  have h : S8x2048x2048.Reduces [2] S8x2048 := by decide
  rw [Host.reduce_eq_fold_single FloatOps.maximumf _ _ reducesTo_S8x2048x2048_S8x2048_d2 h h_S_]
  have hf : (val_main_v13 (F := Ideal) x0 x1 x3 x4 ∘ h.lift (ix2 b q)) = fun k : Fin 2048 => rowScore x0 x1 x3 x4 b q k :=
    funext fun k => by
      show val_main_v13 (F := Ideal) x0 x1 x3 x4 (h.lift (ix2 b q) k) = _
      rw [lift_ix h b q k]
      exact v13_eq x0 x1 x3 x4 b q k
  exact congrArg (fun f => Finset.fold max cBot f (Finset.univ : Finset (Fin 2048))) hf

/-- The row maximum the reference subtracts: minus infinity against the reduction's result. -/
theorem v16_eq (x0 x1 : A3) (x3 x4 : A2) (b : Fin 8) (q : Fin 2048) :
    val_main_v16 (F := Ideal) x0 x1 x3 x4 (ix2 b q) = rowMax x0 x1 x3 x4 b q := by
  rw [val_main_v16_apply, val_main_v15_apply, val_main_cst_3_apply, v14_eq]
  rfl

/-- The exponential of the score under the row maximum, at (b, q, k). -/
theorem v20_eq (x0 x1 : A3) (x3 x4 : A2) (b : Fin 8) (q k : Fin 2048) :
    val_main_v20 (F := Ideal) x0 x1 x3 x4 (ix3 b q k)
      = Ideal.exp (rowScore x0 x1 x3 x4 b q k - rowMax x0 x1 x3 x4 b q) := by
  rw [val_main_v20_apply, val_main_v19_apply, val_main_v18_apply, val_main_v17_apply, idx1718, v13_eq, v16_eq]
  rfl

/-- The sum of the row's 2048 exponentials, from zero, at (b, q). -/
theorem v21_eq (x0 x1 : A3) (x3 x4 : A2) (b : Fin 8) (q : Fin 2048) :
    val_main_v21 (F := Ideal) x0 x1 x3 x4 (ix2 b q) = rowSum x0 x1 x3 x4 b q := by
  rw [val_main_v21_apply, val_main_cst_4_apply]
  unfold rowSum
  exact congrArg (fun s : EReal => cZero + s) (Finset.sum_congr rfl fun k _ => by rw [idx21, v20_eq])

/-- The softmax weight of key k in row (b, q): the exponential over the row sum. -/
theorem v24_eq (x0 x1 : A3) (x3 x4 : A2) (b : Fin 8) (q k : Fin 2048) :
    val_main_v24 (F := Ideal) x0 x1 x3 x4 (ix3 b q k)
      = Ideal.div (Ideal.exp (rowScore x0 x1 x3 x4 b q k - rowMax x0 x1 x3 x4 b q)) (rowSum x0 x1 x3 x4 b q) := by
  rw [val_main_v24_apply, val_main_v23_apply, val_main_v22_apply, idx2223, v20_eq, v21_eq]
  rfl

/-- The masked value at (b, k, d). -/
theorem v27_eq (x2 : A3) (x5 : A2) (b : Fin 8) (k : Fin 2048) (d : Fin 64) :
    val_main_v27 (F := Ideal) x2 x5 (ix3 b k d) = value x2 x5 b k d := by
  rw [val_main_v27_apply, val_main_v26_apply, val_main_v25_apply, idx2526]
  rfl

/-! ## The result -/

/-- The reference's result is the row-softmax attention: at (b, q, d) the sum over the 2048 keys of the softmax weight
    times the masked value. -/
theorem ref_eq_rowAttn (x0 x1 x2 : (⟨Cert.ReferenceIdeal.S8x2048x64, .f32⟩ : BufTy).Contents (Elt Ideal))
    (x3 x4 x5 : (⟨Cert.ReferenceIdeal.S8x2048, .f32⟩ : BufTy).Contents (Elt Ideal)) :
    Cert.ReferenceIdeal.Read.val_main_v28 (F := Ideal) x0 x1 x2 x3 x4 x5 = Cert.AttnValue.rowAttn x0 x1 x2 x3 x4 x5 := by
  funext i
  obtain ⟨b, q, d, rfl⟩ : ∃ b q d, i = ix3 b q d := ⟨i 0, i 1, i 2, eq_ix3 i⟩
  rw [val_main_v28_apply]
  show _ = ∑ k : Fin 2048,
    Ideal.div (Ideal.exp (rowScore x0 x1 x3 x4 b q k - rowMax x0 x1 x3 x4 b q)) (rowSum x0 x1 x3 x4 b q) * value x2 x5 b k d
  exact Finset.sum_congr rfl fun k _ => by rw [lidx28, ridx28, v24_eq, v27_eq]

end Cert.ReferenceIdeal.RefRow

end
-- ==== Proof.LibFiniteEntries.lean ====
/-
  A conjunction "every entry's absolute value is below +∞", read back at exact arithmetic.

  On the extended reals the absolute value of x is max(x, -x), and it is below +∞ exactly when x is neither infinity,
  that is, when x is (the image of) a real number: x = ↑(x.toReal). A precondition that takes the conjunction of
  |x_i| < +∞ over all entries of an array (a reduction by "and" of the one-bit comparisons into a single result, from the
  constant 1) and states that the result is 1 therefore says that the array is the image of its real parts.
  Stated for f32 arrays of any shape, the bound being any array that reads the word of +∞ (0x7F800000) everywhere.
-/
import Idealize.ShloMosaic.PureOps.Ideal
import Idealize.ShloMosaic.PureOps.Ideal.Laws
import Idealize.ShloMosaic.Lib.ReduceAll

noncomputable section

namespace LibFiniteEntries

open Idealize.ShloMosaic

/-- The word 0x7F800000 denotes +∞. -/
theorem ofBits_inf : Ideal.ofBits .f32 0x7F800000#32 = ⊤ := by
  simp [Ideal.ofBits, Ideal.ieee]

/-- An extended real whose absolute value max(x, -x) compares below +∞ is the image of its real part. -/
theorem real_of_abs_lt (x : EReal)
    (h : FloatOps.cmpf (F := Ideal) (φ := .f32) .olt (FloatOps.hostAbsf x) (Ideal.ofBits .f32 0x7F800000#32) = 1#1) :
    x = ((x.toReal : ℝ) : EReal) := by
  rw [Ideal.cmpf_def, Ideal.hostAbsf_def, Ideal.absf_def, ofBits_inf] at h
  induction x using EReal.rec with
  | bot => simp [Ideal.cmp] at h
  | top => simp [Ideal.cmp] at h
  | coe r => rfl

/-- The scalar shape has one index. -/
instance : Subsingleton (⟨0, ![]⟩ : Shape).Idx := ⟨fun a b => funext fun d => d.elim0⟩

/-- If the conjunction over ALL entries of "|x_i| < bound_i" is 1, the bound reading +∞ everywhere, then the array x is
    the image of its real parts. -/
theorem real_of_all_abs_lt {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) :
    x = fun i => (((x i).toReal : ℝ) : EReal) :=
  funext fun i => real_of_abs_lt (x i) (by
    have hi : FloatOps.cmpf (F := Ideal) (φ := .f32) .olt (FloatOps.hostAbsf (x i)) (bound i) = 1#1 :=
      Host.reduce_andi_all _ init h hu j e i
    rw [hb i] at hi
    exact hi)

end LibFiniteEntries

end
-- ==== Proof.FiniteArgs.lean ====
/-
  The precondition "every input is finite", read back entry by entry.

  The precondition takes, for each of the six argument arrays, the absolute value of every entry, compares it with
  plus infinity ("|x| < +∞"), and joins all these one-bit comparisons by "and": first over all the entries of one array
  (a conjunction started at 1), then across the six arrays. It holds when the joined bit is 1.

  A conjunction is 1 exactly when both its members are 1, so each array's own conjunction is 1; a conjunction over all
  entries that is 1 has every member 1; and on the extended reals "max(x, -x) < +∞" says that x is the image of a real
  number. An extended real that is the image of a real number is neither plus nor minus infinity. Hence under the
  precondition every entry of every argument is different from both infinities.
-/
import proofs.«166922_j87754771792527_2_alg».proof.Pre_finite_inputs
import proofs.«166922_j87754771792527_2_alg».proof.Proof.LibFiniteEntries
import Idealize.ShloMosaic.Lib.ReduceAll
import Idealize.ShloMosaic.Lib.ValueIdx

noncomputable section

namespace Cert.Pre_finite_inputs.FiniteArgs

open Idealize.ShloMosaic Cert.Pre_finite_inputs

/-- An array equal to the image of its real parts has no infinite entry. -/
theorem finite_of_real {s : Shape} (a : FVec Ideal s .f32) (e : a = fun i => (((a i).toReal : ℝ) : EReal)) (i : s.Idx) :
    a i ≠ ⊤ ∧ a i ≠ ⊥ := by
  have ei := congrFun e i
  rw [ei]
  exact ⟨EReal.coe_ne_top _, EReal.coe_ne_bot _⟩

/-- One array's part of the precondition: if the conjunction over all entries of "|a_i| < +∞" (the bound being the word of
    plus infinity spread over the array's shape, the conjunction started at 1) is 1, no entry of the array is infinite. -/
theorem finite_of_all {s : Shape} {axes : List (Fin s.rank)} (a : FVec Ideal s .f32)
    (hbc : S_.BroadcastsInDim s (![] : Fin 0 → Fin s.rank)) (hr : s.ReducesTo axes S_) (hu : 0 < S_.numel)
    (e : Host.reduce IntOp.andi (cmpf .olt (Host.absf a) (broadcastInDim s ![] hbc (constant S_ .f32 0x7F800000#32)))
        (constantI S_ 1 1#1) hr hu ValueIdx.ix0 = 1#1) (i : s.Idx) : a i ≠ ⊤ ∧ a i ≠ ⊥ :=
  finite_of_real a (LibFiniteEntries.real_of_all_abs_lt a _ (fun _ => rfl) _ hr hu ValueIdx.ix0 e) i

/-- Under the precondition every entry of each of the six arguments is neither plus nor minus infinity: the joined bit
    being 1 splits into the six arrays' conjunctions being 1, and each of those gives its array's entries finite. -/
theorem finite_of_pre [Cert.Pre_finite_inputs.Facts] (a0 a1 a2 : FVec Ideal Cert.Pre_finite_inputs.S8x2048x64 .f32)
    (a3 a4 a5 : FVec Ideal Cert.Pre_finite_inputs.S8x2048 .f32)
    (h : Cert.Pre_finite_inputs.fn (F := Ideal) a0 a1 a2 a3 a4 a5 = (fun _ => 1#1)) :
    (∀ i, a0 i ≠ ⊤ ∧ a0 i ≠ ⊥) ∧ (∀ i, a1 i ≠ ⊤ ∧ a1 i ≠ ⊥) ∧ (∀ i, a2 i ≠ ⊤ ∧ a2 i ≠ ⊥) ∧ (∀ i, a3 i ≠ ⊤ ∧ a3 i ≠ ⊥)
      ∧ (∀ i, a4 i ≠ ⊤ ∧ a4 i ≠ ⊥) ∧ (∀ i, a5 i ≠ ⊤ ∧ a5 i ≠ ⊥) := by
  have h0 := congrFun h ValueIdx.ix0
  dsimp only [Cert.Pre_finite_inputs.fn, Cert.Pre_finite_inputs.fn_part1] at h0
  simp only [andi, IntOp.andi_eq_one] at h0
  obtain ⟨⟨⟨⟨⟨e0, e1⟩, e2⟩, e3⟩, e4⟩, e5⟩ := h0
  exact ⟨finite_of_all a0 _ _ _ e0, finite_of_all a1 _ _ _ e1, finite_of_all a2 _ _ _ e2, finite_of_all a3 _ _ _ e3,
    finite_of_all a4 _ _ _ e4, finite_of_all a5 _ _ _ e5⟩

end Cert.Pre_finite_inputs.FiniteArgs

end
-- ==== Proof.LibOnlineSoftmax.lean ====
/-
  The online softmax law, over the extended reals.

  A row of scores is cut into blocks. The running merge of "AttnSpec" keeps a running maximum "m", a running
  normaliser "l" and a running weighted sum "acc"; passing a block, what was accumulated under the old maximum is
  rescaled by "exp (m - m')" and the block's own terms "exp (s - m')" are added. This module proves that, when no
  score is "⊤", the first block holds a finite score, the blocks after the "n"-th are all "⊥" and the values are
  finite, the merge's output after "n + 1" blocks, "acc * (1 / l)", is the softmax-weighted sum of the values over
  all "N" blocks: "∑ (exp (s - M) / ∑ exp (s - M)) * v" with "M" the largest score of the row.

  The argument: from the first block on the running maximum is a real number "M_k", the largest score of the first
  "k" blocks, and by induction on "k" the normaliser is "∑ exp (s - M_k)" and the weighted sum "∑ exp (s - M_k) * v",
  the sums over the first "k" blocks; the step is "exp (M - M') * exp (a - M) = exp (a - M')" for a real score "a"
  (both sides are "0" for the score "⊥"). All of it is arithmetic of real numbers: every term is the image of a
  real, and the image of a finite sum is the sum of the images. At the end the largest score of the whole row is
  "M_(n+1)", the blocks after the "n"-th add "exp ⊥ = 0", and "(∑ e * v) * (1 / L) = ∑ (e / L) * v" for the positive
  real "L".

  Nothing here mentions a program or an array: the lemma can serve any kernel whose merge is "AttnSpec"'s.
-/
import proofs.«166922_j87754771792527_2_alg».proof.Proof.AttnSpec
import Mathlib.Data.EReal.Operations
import Mathlib.Data.EReal.Inv
import Mathlib.Analysis.SpecialFunctions.Exp

noncomputable section

open scoped BigOperators

namespace Cert.AttnSpec.OnlineSoftmax

open Idealize.ShloMosaic

/-! ## Real numbers inside the extended reals -/

/-- The image of a finite sum of reals is the sum of the images. -/
theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum over "Fin N" of a function of the position that vanishes after position "n < N" is the sum over the first
    "n + 1" positions. -/
theorem sum_fin_dead (N n : ℕ) (hn : n < N) (g : ℕ → ℝ) (hg : ∀ b, n < b → g b = 0) :
    ∑ b : Fin N, g b.val = ∑ b ∈ Finset.range (n + 1), g b := by
  rw [Fin.sum_univ_eq_sum_range g N]
  symm
  apply Finset.sum_subset
  · intro b hb
    rw [Finset.mem_range] at hb ⊢
    omega
  · intro b _ hb
    rw [Finset.mem_range] at hb
    exact hg b (by omega)

/-! ## A weight as a real number -/

/-- "exp (x - M)" as a real: "0" for "x = ⊥". -/
def w (M : ℝ) (x : EReal) : ℝ := (Ideal.exp (x - (M : EReal))).toReal

theorem w_bot (M : ℝ) : w M ⊥ = 0 := by
  unfold w
  rw [EReal.bot_sub, Ideal.exp_bot, EReal.toReal_zero]

theorem w_coe (M a : ℝ) : w M (a : EReal) = Real.exp (a - M) := by
  unfold w
  rw [← EReal.coe_sub, Ideal.exp_coe, EReal.toReal_coe]

/-- Off "⊤", "exp (x - M)" is the image of the real weight. -/
theorem exp_sub_coe (M : ℝ) (x : EReal) (hx : x ≠ ⊤) :
    Ideal.exp (x - (M : EReal)) = ((w M x : ℝ) : EReal) := by
  induction x using EReal.rec with
  | bot => rw [w_bot, EReal.bot_sub, Ideal.exp_bot, EReal.coe_zero]
  | coe a => rw [w_coe, ← EReal.coe_sub, Ideal.exp_coe]
  | top => exact absurd rfl hx

theorem w_nonneg (M : ℝ) (x : EReal) : 0 ≤ w M x := by
  induction x using EReal.rec with
  | bot => rw [w_bot]
  | coe a => rw [w_coe]; exact (Real.exp_pos _).le
  | top => unfold w; rw [EReal.top_sub_coe, Ideal.exp_top, EReal.toReal_top]

/-- Moving the reference point from "M" to "M'" multiplies a weight by "exp (M - M')". -/
theorem w_rescale (M M' : ℝ) (x : EReal) (hx : x ≠ ⊤) : Real.exp (M - M') * w M x = w M' x := by
  induction x using EReal.rec with
  | bot => rw [w_bot, w_bot, mul_zero]
  | coe a =>
    rw [w_coe, w_coe, ← Real.exp_add]
    congr 1
    ring
  | top => exact absurd rfl hx

/-! ## The running maximum -/

section Merge

variable {C : Type} [Fintype C]

theorem blockMax_le (s : C → EReal) (x : EReal) : blockMax s ≤ x ↔ ∀ c, s c ≤ x := by
  unfold blockMax
  rw [Finset.fold_max_le]
  simp

theorem blockMax_lt_top (s : C → EReal) (hs : ∀ c, s c ≠ ⊤) : blockMax s < ⊤ := by
  unfold blockMax
  rw [Finset.fold_max_lt]
  exact ⟨bot_lt_top, fun c _ => lt_top_iff_ne_top.mpr (hs c)⟩

theorem st_succ (s : ℕ → C → EReal) (k : ℕ) :
    st s (k + 1) = (mNext (st s k).1 (s k), lNext (st s k).1 (st s k).2 (s k)) := rfl

theorem acc_succ (s v : ℕ → C → EReal) (k : ℕ) :
    acc s v (k + 1) = accNext (st s k).1 (acc s v k) (s k) (v k) := rfl

/-- The running maximum after "k" blocks is the least upper bound of the scores of the first "k" blocks. -/
theorem st_fst_le (s : ℕ → C → EReal) (k : ℕ) (x : EReal) :
    (st s k).1 ≤ x ↔ ∀ b, b < k → ∀ c, s b c ≤ x := by
  induction k with
  | zero =>
    constructor
    · intro _ b hb
      exact absurd hb (Nat.not_lt_zero b)
    · intro _
      exact bot_le
  | succ k ih =>
    rw [st_succ]
    show max (st s k).1 (blockMax (s k)) ≤ x ↔ _
    rw [max_le_iff, ih, blockMax_le]
    constructor
    · rintro ⟨h1, h2⟩ b hb c
      rcases Nat.lt_succ_iff_lt_or_eq.mp hb with h | h
      · exact h1 b h c
      · rw [h]; exact h2 c
    · intro h
      exact ⟨fun b hb c => h b (Nat.lt_succ_of_lt hb) c, fun c => h k (Nat.lt_succ_self k) c⟩

theorem st_fst_lt_top (s : ℕ → C → EReal) (hs : ∀ b c, s b c ≠ ⊤) (k : ℕ) : (st s k).1 < ⊤ := by
  induction k with
  | zero => exact bot_lt_top
  | succ k ih =>
    rw [st_succ]
    exact max_lt ih (blockMax_lt_top (s k) (hs k))

/-- From the first block on the running maximum is a real number. -/
theorem st_fst_real (s : ℕ → C → EReal) (hs : ∀ b c, s b c ≠ ⊤) (hlive : ∃ c, s 0 c ≠ ⊥) (k : ℕ) :
    ∃ M : ℝ, (st s (k + 1)).1 = (M : EReal) := by
  obtain ⟨c0, hc0⟩ := hlive
  have h1 : (st s (k + 1)).1 ≠ ⊤ := (st_fst_lt_top s hs (k + 1)).ne
  have h2 : (st s (k + 1)).1 ≠ ⊥ := by
    intro h
    have := (st_fst_le s (k + 1) (st s (k + 1)).1).mp le_rfl 0 (Nat.succ_pos k) c0
    rw [h] at this
    exact hc0 (le_bot_iff.mp this)
  exact ⟨(st s (k + 1)).1.toReal, (EReal.coe_toReal h1 h2).symm⟩

/-! ## One block's terms as real sums -/

theorem block_terms (m : EReal) (sk vk : C → EReal) (hsk : ∀ c, sk c ≠ ⊤)
    (hvk : ∀ c, vk c ≠ ⊤ ∧ vk c ≠ ⊥) (M' : ℝ) (hM' : mNext m sk = (M' : EReal)) :
    (∑ c, weight m sk c) = ((∑ c, w M' (sk c) : ℝ) : EReal)
      ∧ (∑ c, weight m sk c * vk c) = ((∑ c, w M' (sk c) * (vk c).toReal : ℝ) : EReal) := by
  constructor
  · rw [coe_sum]
    refine Finset.sum_congr rfl (fun c _ => ?_)
    unfold weight
    rw [hM', exp_sub_coe _ _ (hsk c)]
  · rw [coe_sum]
    refine Finset.sum_congr rfl (fun c _ => ?_)
    unfold weight
    rw [hM', exp_sub_coe _ _ (hsk c), EReal.coe_mul, EReal.coe_toReal (hvk c).1 (hvk c).2]

/-! ## The invariant of the merge -/

/-- After "k + 1" blocks the running maximum is a real "M", the normaliser is "∑ exp (s - M)" and the weighted sum is
    "∑ exp (s - M) * v", the sums over the first "k + 1" blocks. -/
theorem merge_inv (s v : ℕ → C → EReal) (hs : ∀ b c, s b c ≠ ⊤) (hlive : ∃ c, s 0 c ≠ ⊥)
    (hv : ∀ b c, v b c ≠ ⊤ ∧ v b c ≠ ⊥) (k : ℕ) :
    ∃ M : ℝ, (st s (k + 1)).1 = (M : EReal)
      ∧ (st s (k + 1)).2 = ((∑ b ∈ Finset.range (k + 1), ∑ c, w M (s b c) : ℝ) : EReal)
      ∧ acc s v (k + 1)
          = ((∑ b ∈ Finset.range (k + 1), ∑ c, w M (s b c) * (v b c).toReal : ℝ) : EReal) := by
  induction k with
  | zero =>
    obtain ⟨M, hM⟩ := st_fst_real s hs hlive 0
    have hM' : mNext (⊥ : EReal) (s 0) = (M : EReal) := hM
    obtain ⟨t1, t2⟩ := block_terms ⊥ (s 0) (v 0) (hs 0) (hv 0) M hM'
    refine ⟨M, hM, ?_, ?_⟩
    · show lNext (⊥ : EReal) 0 (s 0) = _
      unfold lNext
      rw [mul_zero, zero_add, t1, Finset.sum_range_one]
    · show accNext (⊥ : EReal) 0 (s 0) (v 0) = _
      unfold accNext
      rw [mul_zero, zero_add, t2, Finset.sum_range_one]
  | succ k ih =>
    obtain ⟨M, h1, h2, h3⟩ := ih
    obtain ⟨M', hM'⟩ := st_fst_real s hs hlive (k + 1)
    have hN : mNext (M : EReal) (s (k + 1)) = (M' : EReal) := by
      rw [← h1]; exact hM'
    obtain ⟨t1, t2⟩ := block_terms (M : EReal) (s (k + 1)) (v (k + 1)) (hs (k + 1)) (hv (k + 1)) M' hN
    have ha : alpha (M : EReal) (s (k + 1)) = ((Real.exp (M - M') : ℝ) : EReal) := by
      unfold alpha
      rw [hN, ← EReal.coe_sub, Ideal.exp_coe]
    refine ⟨M', hM', ?_, ?_⟩
    · rw [st_succ]
      show lNext (st s (k + 1)).1 (st s (k + 1)).2 (s (k + 1)) = _
      rw [h1, h2]
      unfold lNext
      rw [ha, t1, ← EReal.coe_mul, ← EReal.coe_add, Finset.sum_range_succ _ (k + 1)]
      congr 2
      rw [Finset.mul_sum]
      refine Finset.sum_congr rfl (fun b _ => ?_)
      rw [Finset.mul_sum]
      exact Finset.sum_congr rfl (fun c _ => w_rescale M M' _ (hs b c))
    · rw [acc_succ, h1, h3]
      unfold accNext
      rw [ha, t2, ← EReal.coe_mul, ← EReal.coe_add, Finset.sum_range_succ _ (k + 1)]
      congr 2
      rw [Finset.mul_sum]
      refine Finset.sum_congr rfl (fun b _ => ?_)
      rw [Finset.mul_sum]
      refine Finset.sum_congr rfl (fun c _ => ?_)
      rw [← mul_assoc, w_rescale M M' _ (hs b c)]

end Merge

end Cert.AttnSpec.OnlineSoftmax

/-! ## The law -/

namespace Cert.AttnSpec

open Idealize.ShloMosaic OnlineSoftmax

theorem out_eq_softmax {C : Type} [Fintype C] (N n : ℕ) (hn : n < N) (s v : ℕ → C → EReal)
    (hs : ∀ b c, s b c ≠ ⊤) (hlive : ∃ c, s 0 c ≠ ⊥) (hdead : ∀ b, n < b → ∀ c, s b c = ⊥)
    (hv : ∀ b c, v b c ≠ ⊤ ∧ v b c ≠ ⊥) :
    out s v (n + 1)
      = ∑ b : Fin N, ∑ c : C,
          Ideal.div (Ideal.exp (s b.val c - Finset.univ.fold max ⊥ (fun p : Fin N × C => s p.1.val p.2)))
            (∑ b' : Fin N, ∑ c' : C, Ideal.exp (s b'.val c' - Finset.univ.fold max ⊥ (fun p : Fin N × C => s p.1.val p.2)))
          * v b.val c := by
  obtain ⟨M, h1, h2, h3⟩ := merge_inv s v hs hlive hv n
  -- the largest score of the whole row is the running maximum after "n + 1" blocks
  have hF : Finset.univ.fold max ⊥ (fun p : Fin N × C => s p.1.val p.2) = (M : EReal) := by
    rw [← h1]
    apply eq_of_forall_ge_iff
    intro x
    rw [Finset.fold_max_le, st_fst_le]
    constructor
    · rintro ⟨_, h⟩ b hb c
      exact h (⟨b, by omega⟩, c) (Finset.mem_univ _)
    · intro h
      refine ⟨bot_le, fun p _ => ?_⟩
      by_cases hp : p.1.val < n + 1
      · exact h p.1.val hp p.2
      · rw [hdead p.1.val (by omega) p.2]
        exact bot_le
  rw [hF]
  -- the normaliser
  obtain ⟨L, hL⟩ : ∃ L : ℝ, L = ∑ b ∈ Finset.range (n + 1), ∑ c, w M (s b c) := ⟨_, rfl⟩
  rw [← hL] at h2
  have hLpos : 0 < L := by
    obtain ⟨c0, hc0⟩ := hlive
    have hpos : 0 < w M (s 0 c0) := by
      have e : s 0 c0 = ((s 0 c0).toReal : EReal) := (EReal.coe_toReal (hs 0 c0) hc0).symm
      rw [e, w_coe]
      exact Real.exp_pos _
    have l1 : w M (s 0 c0) ≤ ∑ c, w M (s 0 c) :=
      Finset.single_le_sum (f := fun c => w M (s 0 c)) (fun c _ => w_nonneg M _) (Finset.mem_univ c0)
    have l2 : (∑ c, w M (s 0 c)) ≤ L := by
      rw [hL]
      exact Finset.single_le_sum (f := fun b => ∑ c, w M (s b c))
        (fun b _ => Finset.sum_nonneg (fun c _ => w_nonneg M _)) (Finset.mem_range.mpr (Nat.succ_pos n))
    linarith
  have hL0 : L ≠ 0 := hLpos.ne'
  have hden : (∑ b' : Fin N, ∑ c' : C, Ideal.exp (s b'.val c' - (M : EReal))) = (L : EReal) := by
    rw [hL, ← sum_fin_dead N n hn (fun b => ∑ c, w M (s b c))
      (fun b hb => Finset.sum_eq_zero (fun c _ => by rw [hdead b hb c, w_bot])), coe_sum]
    refine Finset.sum_congr rfl (fun b _ => ?_)
    rw [coe_sum]
    exact Finset.sum_congr rfl (fun c _ => exp_sub_coe M _ (hs b.val c))
  rw [hden]
  -- the right side as the image of a real sum
  have hR : (∑ b : Fin N, ∑ c : C, Ideal.div (Ideal.exp (s b.val c - (M : EReal))) (L : EReal) * v b.val c)
      = ((∑ b ∈ Finset.range (n + 1), ∑ c, w M (s b c) * (1 / L) * (v b c).toReal : ℝ) : EReal) := by
    rw [← sum_fin_dead N n hn (fun b => ∑ c, w M (s b c) * (1 / L) * (v b c).toReal)
      (fun b hb => Finset.sum_eq_zero (fun c _ => by rw [hdead b hb c, w_bot, zero_mul, zero_mul])), coe_sum]
    refine Finset.sum_congr rfl (fun b _ => ?_)
    rw [coe_sum]
    refine Finset.sum_congr rfl (fun c _ => ?_)
    rw [Ideal.div_coe hL0, exp_sub_coe M _ (hs b.val c), EReal.coe_mul, EReal.coe_mul,
      EReal.coe_toReal (hv b.val c).1 (hv b.val c).2]
  rw [hR]
  -- the left side
  unfold out
  rw [h2, h3, Ideal.div_coe hL0, one_mul, ← EReal.coe_mul]
  congr 1
  rw [Finset.sum_mul]
  refine Finset.sum_congr rfl (fun b _ => ?_)
  rw [Finset.sum_mul]
  refine Finset.sum_congr rfl (fun c _ => ?_)
  ring

end Cert.AttnSpec

end
-- ==== Proof.RowSoftmax.lean ====
/-
  Softmax over a whole row of 2048 scores, against the running merge over four blocks of 512.

  "rowAttn" takes, for a batch "b" and a query row "q", the 2048 scores "x_k" (the dot product of the query and key
  rows divided by the square root of 64, plus the padding penalty), their maximum "m" from minus infinity, the sum
  "S = ∑ exp (x_k - m)" from zero, and returns "∑ (exp (x_k - m) / S) * v_k" for the masked values "v_k". "attn" passes
  the same 2048 key rows in four blocks of 512, keeping a running maximum, normaliser and weighted sum, and divides the
  weighted sum by the normaliser at the end. This module proves that the two are the same array when every entry of
  the six argument arrays is a real number.

  The steps. (1) The binary words are the numbers they name: minus infinity, 0, 1, 1/8, 64 and a real number for the
  penalty; the square root of 64 is 8, and dividing by 8 is multiplying by 1/8 for every extended real, so the two ways
  of writing a score agree. (2) Sums, products and differences of real numbers are real, so every score and every masked
  value is a real number. (3) Hence the law of the running merge applies: its output after the four blocks is the
  softmax-weighted sum over "Fin 4 × Fin 512", and since the normaliser is a positive real the quotient at the end is the
  product with the reciprocal. (4) Key row "512 * j + c" is place "c" of block "j", a bijection of "Fin 4 × Fin 512" with
  "Fin 2048"; a sum over the row is the double sum over blocks and places, and the two maxima have the same upper bounds.
-/
import proofs.«166922_j87754771792527_2_alg».proof.Proof.AttnValue
import proofs.«166922_j87754771792527_2_alg».proof.Proof.LibOnlineSoftmax
import Idealize.ShloMosaic.PureOps.Ideal.Laws

noncomputable section

open scoped BigOperators

namespace Cert.AttnValue.RowSoftmax

open Idealize.ShloMosaic Idealize.ShloMosaic.ValueIdx Cert.AttnSpec Cert.AttnSpec.OnlineSoftmax Cert.AttnValue

/-! ## The binary words -/

/-- The word of minus infinity. -/
theorem cBot_eq : cBot = ⊥ := by
  simp [Ideal.ofBits, Ideal.ieee]

/-- The word of zero. -/
theorem cZero_eq : cZero = 0 := by
  simp [Ideal.ofBits, Ideal.ieee]

/-- The word of one: 2^23 * 2^(127 - 127 - 23). -/
theorem cOne_eq : cOne = ((1 : ℝ) : EReal) := by
  simp [Ideal.ofBits, Ideal.ieee]
  exact_mod_cast (by norm_num : ((8388608 : ℝ) * (2 ^ 23)⁻¹ = 1))

/-- The word of one eighth: 2^23 * 2^(124 - 127 - 23). -/
theorem cEighth_eq : cEighth = ((1 / 8 : ℝ) : EReal) := by
  simp [Ideal.ofBits, Ideal.ieee]
  exact_mod_cast (by norm_num : ((8388608 : ℝ) * (2 ^ 26)⁻¹ = 8⁻¹))

/-- The word of sixty-four: 2^23 * 2^(133 - 127 - 23). -/
theorem word_64 : Ideal.ofBits .f32 0x42800000#32 = ((64 : ℝ) : EReal) := by
  simp [Ideal.ofBits, Ideal.ieee]
  exact_mod_cast (by norm_num : ((8388608 : ℝ) * (2 ^ 17)⁻¹ = 64))

/-- The penalty word is a real number (it is -(15625000 * 2^6) = -10^9). -/
theorem cNeg_real : ∃ r : ℝ, cNeg = (r : EReal) := by
  simp [Ideal.ofBits, Ideal.ieee]
  exact ⟨-(15625000 * 2 ^ 6), by push_cast; rfl⟩

/-- The square root of 64 is 8. -/
theorem sqrt_64 : Real.sqrt 64 = 8 := by
  rw [show (64 : ℝ) = 8 * 8 by norm_num]
  exact Real.sqrt_mul_self (by norm_num)

/-! ## Real numbers among the extended reals -/

/-- An extended real that is the image of a real number. -/
def IsReal (x : EReal) : Prop := ∃ r : ℝ, x = (r : EReal)

theorem isReal_of_ne {x : EReal} (h : x ≠ ⊤ ∧ x ≠ ⊥) : IsReal x :=
  ⟨x.toReal, (EReal.coe_toReal h.1 h.2).symm⟩

theorem IsReal.ne {x : EReal} (h : IsReal x) : x ≠ ⊤ ∧ x ≠ ⊥ := by
  obtain ⟨r, rfl⟩ := h
  exact ⟨EReal.coe_ne_top r, EReal.coe_ne_bot r⟩

theorem isReal_coe (r : ℝ) : IsReal (r : EReal) := ⟨r, rfl⟩

theorem IsReal.mul {x y : EReal} (hx : IsReal x) (hy : IsReal y) : IsReal (x * y) := by
  obtain ⟨r, rfl⟩ := hx
  obtain ⟨t, rfl⟩ := hy
  exact ⟨r * t, (EReal.coe_mul r t).symm⟩

theorem IsReal.add {x y : EReal} (hx : IsReal x) (hy : IsReal y) : IsReal (x + y) := by
  obtain ⟨r, rfl⟩ := hx
  obtain ⟨t, rfl⟩ := hy
  exact ⟨r + t, (EReal.coe_add r t).symm⟩

theorem IsReal.sub {x y : EReal} (hx : IsReal x) (hy : IsReal y) : IsReal (x - y) := by
  obtain ⟨r, rfl⟩ := hx
  obtain ⟨t, rfl⟩ := hy
  exact ⟨r - t, (EReal.coe_sub r t).symm⟩

/-- A finite sum of real numbers is a real number. -/
theorem IsReal.sum {ι : Type} (t : Finset ι) (f : ι → EReal) (h : ∀ i ∈ t, IsReal (f i)) :
    IsReal (∑ i ∈ t, f i) := by
  classical
  induction t using Finset.induction_on with
  | empty => exact ⟨0, by simp⟩
  | insert a t ha ih =>
    rw [Finset.sum_insert ha]
    exact (h a (Finset.mem_insert_self a t)).add (ih (fun i hi => h i (Finset.mem_insert_of_mem hi)))

/-! ## Scores and values -/

/-- Dividing by the square root of 64 is multiplying by one eighth: the two ways of writing a score agree. -/
theorem rowScore_eq_score (Q K : Arr3) (mq mk : Arr2) (b : Fin 8) (q k : Fin 2048) :
    rowScore Q K mq mk b q k = score Q K mq mk b q k := by
  unfold rowScore score
  rw [word_64, Ideal.sqrt_coe, if_neg (by norm_num : ¬ (64 : ℝ) < 0), sqrt_64,
    Ideal.div_coe (by norm_num : (8 : ℝ) ≠ 0), cEighth_eq]

/-- Every score is a real number when the arrays hold real numbers. -/
theorem score_real (Q K : Arr3) (mq mk : Arr2)
    (hQ : ∀ i, Q i ≠ ⊤ ∧ Q i ≠ ⊥) (hK : ∀ i, K i ≠ ⊤ ∧ K i ≠ ⊥)
    (hmq : ∀ i, mq i ≠ ⊤ ∧ mq i ≠ ⊥) (hmk : ∀ i, mk i ≠ ⊤ ∧ mk i ≠ ⊥) (b : Fin 8) (q k : Fin 2048) :
    IsReal (score Q K mq mk b q k) := by
  unfold score
  obtain ⟨r, hr⟩ := cNeg_real
  rw [cEighth_eq, cOne_eq, hr]
  exact ((IsReal.sum _ _ (fun d _ => (isReal_of_ne (hQ _)).mul (isReal_of_ne (hK _)))).mul (isReal_coe _)).add
    (((isReal_coe _).sub ((isReal_of_ne (hmq _)).mul (isReal_of_ne (hmk _)))).mul (isReal_coe _))

/-- Every masked value is a real number. -/
theorem value_real (V : Arr3) (mv : Arr2) (hV : ∀ i, V i ≠ ⊤ ∧ V i ≠ ⊥) (hmv : ∀ i, mv i ≠ ⊤ ∧ mv i ≠ ⊥)
    (b : Fin 8) (k : Fin 2048) (d : Fin 64) : IsReal (value V mv b k d) := by
  unfold value
  exact (isReal_of_ne (hV _)).mul (isReal_of_ne (hmv _))

/-! ## Key rows as blocks and places -/

/-- Key row "512 * j + c" is place "c" of block "j": a bijection. -/
def keyEquiv : Fin 4 × Fin 512 ≃ Fin 2048 where
  toFun p := keyPos p.1 p.2
  invFun k := (⟨k.val / 512, by have := k.isLt; omega⟩, ⟨k.val % 512, by omega⟩)
  left_inv := by
    rintro ⟨j, c⟩
    have hj := j.isLt
    have hc := c.isLt
    ext
    · show (512 * j.val + c.val) / 512 = j.val
      omega
    · show (512 * j.val + c.val) % 512 = c.val
      omega
  right_inv := by
    intro k
    ext
    show 512 * (k.val / 512) + k.val % 512 = k.val
    omega

/-- Every key row is a place of a block. -/
theorem keyPos_surj (k : Fin 2048) : ∃ j c, k = keyPos j c :=
  ⟨(keyEquiv.symm k).1, (keyEquiv.symm k).2, (keyEquiv.apply_symm_apply k).symm⟩

/-- A sum over the row is the double sum over blocks and places. -/
theorem sum_keyPos {M : Type} [AddCommMonoid M] (g : Fin 2048 → M) :
    ∑ k : Fin 2048, g k = ∑ j : Fin 4, ∑ c : Fin 512, g (keyPos j c) := by
  rw [← Fintype.sum_prod_type' (fun j c => g (keyPos j c))]
  exact (Fintype.sum_equiv keyEquiv (fun p => g (keyPos p.1 p.2)) g (fun _ => rfl)).symm

theorem blockScores_fin (Q K : Arr3) (mq mk : Arr2) (b : Fin 8) (q : Fin 2048) (j : Fin 4) (c : Fin 512) :
    blockScores Q K mq mk b q j.val c = score Q K mq mk b q (keyPos j c) := by
  unfold blockScores
  rw [dif_pos j.isLt]

theorem blockValues_fin (V : Arr3) (mv : Arr2) (b : Fin 8) (d : Fin 64) (j : Fin 4) (c : Fin 512) :
    blockValues V mv b d j.val c = value V mv b (keyPos j c) d := by
  unfold blockValues
  rw [dif_pos j.isLt]

/-- The largest score of the row is the largest over blocks and places. -/
theorem rowMax_eq (Q K : Arr3) (mq mk : Arr2) (b : Fin 8) (q : Fin 2048) :
    rowMax Q K mq mk b q
      = Finset.univ.fold max ⊥ (fun p : Fin 4 × Fin 512 => blockScores Q K mq mk b q p.1.val p.2) := by
  unfold rowMax
  rw [cBot_eq, max_eq_right bot_le]
  apply eq_of_forall_ge_iff
  intro x
  rw [Finset.fold_max_le, Finset.fold_max_le]
  constructor
  · rintro ⟨_, h⟩
    refine ⟨bot_le, fun p _ => ?_⟩
    rw [blockScores_fin, ← rowScore_eq_score]
    exact h _ (Finset.mem_univ _)
  · rintro ⟨_, h⟩
    refine ⟨bot_le, fun k _ => ?_⟩
    obtain ⟨j, c, rfl⟩ := keyPos_surj k
    have := h (j, c) (Finset.mem_univ _)
    rw [blockScores_fin, ← rowScore_eq_score] at this
    exact this

/-- The sum of the row's exponentials is the double sum over blocks and places. -/
theorem rowSum_eq (Q K : Arr3) (mq mk : Arr2) (b : Fin 8) (q : Fin 2048) :
    rowSum Q K mq mk b q
      = ∑ j : Fin 4, ∑ c : Fin 512,
          Ideal.exp (blockScores Q K mq mk b q j.val c
            - Finset.univ.fold max ⊥ (fun p : Fin 4 × Fin 512 => blockScores Q K mq mk b q p.1.val p.2)) := by
  unfold rowSum
  rw [cZero_eq, zero_add, sum_keyPos]
  refine Finset.sum_congr rfl (fun j _ => Finset.sum_congr rfl (fun c _ => ?_))
  rw [rowScore_eq_score, ← blockScores_fin, rowMax_eq]

/-! ## The quotient at the end of the merge -/

/-- When no score is "⊤", the first block holds a real score and the values are real, the normaliser after "n + 1"
    blocks is a positive real, so dividing the weighted sum by it is multiplying by its reciprocal. -/
theorem div_eq_out {C : Type} [Fintype C] (s v : ℕ → C → EReal) (hs : ∀ b c, s b c ≠ ⊤) (hlive : ∃ c, s 0 c ≠ ⊥)
    (hv : ∀ b c, v b c ≠ ⊤ ∧ v b c ≠ ⊥) (n : ℕ) :
    Ideal.div (acc s v (n + 1)) (st s (n + 1)).2 = out s v (n + 1) := by
  obtain ⟨M, _, h2, _⟩ := merge_inv s v hs hlive hv n
  obtain ⟨c0, hc0⟩ := hlive
  have hpos : 0 < w M (s 0 c0) := by
    have e : s 0 c0 = ((s 0 c0).toReal : EReal) := (EReal.coe_toReal (hs 0 c0) hc0).symm
    rw [e, w_coe]
    exact Real.exp_pos _
  have l1 : w M (s 0 c0) ≤ ∑ c, w M (s 0 c) :=
    Finset.single_le_sum (f := fun c => w M (s 0 c)) (fun c _ => w_nonneg M _) (Finset.mem_univ c0)
  have l2 : (∑ c, w M (s 0 c)) ≤ ∑ b ∈ Finset.range (n + 1), ∑ c, w M (s b c) :=
    Finset.single_le_sum (f := fun b => ∑ c, w M (s b c))
      (fun b _ => Finset.sum_nonneg (fun c _ => w_nonneg M _)) (Finset.mem_range.mpr (Nat.succ_pos n))
  have hL0 : (∑ b ∈ Finset.range (n + 1), ∑ c, w M (s b c)) ≠ 0 := (lt_of_lt_of_le hpos (l1.trans l2)).ne'
  unfold out
  rw [h2, Ideal.div_coe hL0, Ideal.div_coe hL0, one_mul]

/-! ## The two attentions -/

/-- One entry: the softmax over the whole row against the merge over the four blocks. -/
theorem row_eq_merge (Q K V : Arr3) (mq mk mv : Arr2)
    (hQ : ∀ i, Q i ≠ ⊤ ∧ Q i ≠ ⊥) (hK : ∀ i, K i ≠ ⊤ ∧ K i ≠ ⊥) (hV : ∀ i, V i ≠ ⊤ ∧ V i ≠ ⊥)
    (hmq : ∀ i, mq i ≠ ⊤ ∧ mq i ≠ ⊥) (hmk : ∀ i, mk i ≠ ⊤ ∧ mk i ≠ ⊥) (hmv : ∀ i, mv i ≠ ⊤ ∧ mv i ≠ ⊥)
    (b : Fin 8) (q : Fin 2048) (d : Fin 64) :
    (∑ k : Fin 2048,
        Ideal.div (Ideal.exp (rowScore Q K mq mk b q k - rowMax Q K mq mk b q)) (rowSum Q K mq mk b q)
          * value V mv b k d)
      = Ideal.div (acc (blockScores Q K mq mk b q) (blockValues V mv b d) 4)
          (st (blockScores Q K mq mk b q) 4).2 := by
  have hs : ∀ j c, blockScores Q K mq mk b q j c ≠ ⊤ := by
    intro j c
    unfold blockScores
    by_cases h : j < 4
    · rw [dif_pos h]
      exact (score_real Q K mq mk hQ hK hmq hmk b q _).ne.1
    · rw [dif_neg h]
      exact bot_ne_top
  have hlive : ∃ c, blockScores Q K mq mk b q 0 c ≠ ⊥ := by
    refine ⟨0, ?_⟩
    unfold blockScores
    rw [dif_pos (by norm_num : 0 < 4)]
    exact (score_real Q K mq mk hQ hK hmq hmk b q _).ne.2
  have hdead : ∀ j, 3 < j → ∀ c, blockScores Q K mq mk b q j c = ⊥ := by
    intro j hj c
    unfold blockScores
    rw [dif_neg (by omega)]
  have hv : ∀ j c, blockValues V mv b d j c ≠ ⊤ ∧ blockValues V mv b d j c ≠ ⊥ := by
    intro j c
    unfold blockValues
    by_cases h : j < 4
    · rw [dif_pos h]
      exact (value_real V mv hV hmv b _ d).ne
    · rw [dif_neg h]
      exact ⟨EReal.zero_ne_top, EReal.zero_ne_bot⟩
  rw [div_eq_out _ _ hs hlive hv 3, out_eq_softmax 4 3 (by norm_num) _ _ hs hlive hdead hv, sum_keyPos]
  refine Finset.sum_congr rfl (fun j _ => Finset.sum_congr rfl (fun c _ => ?_))
  rw [rowScore_eq_score, ← blockScores_fin, rowMax_eq, rowSum_eq, blockValues_fin]

/-- Softmax over the whole row, then the weighted sum of the masked values, is the four-block running merge divided
    at the end, when every entry of the six arrays is a real number. -/
theorem rowAttn_eq_attn (Q K V : Arr3) (mq mk mv : Arr2)
    (hQ : ∀ i, Q i ≠ ⊤ ∧ Q i ≠ ⊥) (hK : ∀ i, K i ≠ ⊤ ∧ K i ≠ ⊥) (hV : ∀ i, V i ≠ ⊤ ∧ V i ≠ ⊥)
    (hmq : ∀ i, mq i ≠ ⊤ ∧ mq i ≠ ⊥) (hmk : ∀ i, mk i ≠ ⊤ ∧ mk i ≠ ⊥) (hmv : ∀ i, mv i ≠ ⊤ ∧ mv i ≠ ⊥) :
    Cert.AttnValue.rowAttn Q K V mq mk mv = Cert.AttnValue.attn Q K V mq mk mv := by
  funext i
  exact row_eq_merge Q K V mq mk mv hQ hK hV hmq hmk hmv (i 0) (i 1) (i 2)

end Cert.AttnValue.RowSoftmax

end
-- ==== Proof.Claims.lean ====
/-
  The certificate's five claims, assembled.

  Three of them say that a program runs and leaves its argument arrays unchanged: for the kernel, read at binary words
  and read at the extended reals, that is the program's own frame theorem; for the reference it is the reference's run
  with the statement about its result dropped. The fourth records that the idealized kernel is the kernel's own text
  (nothing was rewritten), which holds trivially.

  The fifth says that, at the extended reals and under the precondition that every input entry is finite, the kernel
  and the reference end with the same result array. The kernel's part enters here as a hypothesis: its run ends with the
  result array equal to "attn" of the six argument arrays (the running merge over four blocks of 512 keys, divided by the
  normaliser at the end). The reference's run ends with its last stage, which is "rowAttn" of its six argument arrays
  (one softmax over each whole row of 2048 keys). The two programs' arguments agree, the precondition makes every entry of
  them a real number, and for real entries "rowAttn" and "attn" are the same array. So both results equal "attn" of the
  kernel's arguments.
-/
import proofs.«166922_j87754771792527_2_alg».proof.Defs
import proofs.«166922_j87754771792527_2_alg».proof.Proof.Gen.Kernel.Frame
import proofs.«166922_j87754771792527_2_alg».proof.Proof.Gen.KernelIdeal.Frame
import proofs.«166922_j87754771792527_2_alg».proof.Proof.Gen.ReferenceIdeal.Run
import proofs.«166922_j87754771792527_2_alg».proof.Proof.Gen.ReferenceIdeal.Read
import proofs.«166922_j87754771792527_2_alg».proof.Proof.Gen.Pre_finite_inputs
import proofs.«166922_j87754771792527_2_alg».proof.Proof.RefRow
import proofs.«166922_j87754771792527_2_alg».proof.Proof.FiniteArgs
import proofs.«166922_j87754771792527_2_alg».proof.Proof.RowSoftmax
import proofs.«166922_j87754771792527_2_alg».proof.Proof.AttnValue

noncomputable section

open Idealize.ShloMosaic Idealize.ShloMosaic.TcCoe Idealize.SL.Sem

namespace Cert.Proof.AttnClaims

/-- The kernel at binary words runs and keeps its arguments. -/
theorem frame_k : Cert.frame_Kernel := fun m ρ _ => Cert.Kernel.Gen.frame m ρ

/-- The kernel at the extended reals runs and keeps its arguments. -/
theorem frame_ki : Cert.frame_KernelIdeal := fun m ρ _ => Cert.KernelIdeal.Gen.frame m ρ

/-- The reference runs and keeps its arguments: its run, without the statement about the result. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: there is nothing to preserve. -/
theorem preserves : Cert.preserves_Kernel_KernelIdeal := trivial

/-- If the kernel's run at the extended reals ends with its result array equal to "attn" of its six argument arrays, the
    arguments unchanged, then under the precondition the kernel and the reference end with equal results. -/
theorem algebraic_of_run
    (hrun : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ fun r => ∀ c : Dev Cert.KernelIdeal.nD,
          r.2.mem ((c.tc : Thread Cert.KernelIdeal.nD Cert.KernelIdeal.τ).loc Cert.KernelIdeal.main_v3)
              = Cert.AttnValue.attn
                  (m ((c.tc : Thread Cert.KernelIdeal.nD Cert.KernelIdeal.τ).loc Cert.KernelIdeal.main_arg0))
                  (m ((c.tc : Thread Cert.KernelIdeal.nD Cert.KernelIdeal.τ).loc Cert.KernelIdeal.main_arg1))
                  (m ((c.tc : Thread Cert.KernelIdeal.nD Cert.KernelIdeal.τ).loc Cert.KernelIdeal.main_arg2))
                  (m ((c.tc : Thread Cert.KernelIdeal.nD Cert.KernelIdeal.τ).loc Cert.KernelIdeal.main_arg3))
                  (m ((c.tc : Thread Cert.KernelIdeal.nD Cert.KernelIdeal.τ).loc Cert.KernelIdeal.main_arg4))
                  (m ((c.tc : Thread Cert.KernelIdeal.nD Cert.KernelIdeal.τ).loc Cert.KernelIdeal.main_arg5))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :
    Cert.algebraic_KernelIdeal_ReferenceIdeal := by
  intro m ρ m' ρ' hpre hagree
  refine ⟨fun c => Cert.AttnValue.attn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), hrun m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefRow.ref_eq_rowAttn, (hagree c).1, (hagree c).2.1,
    (hagree c).2.2.1, (hagree c).2.2.2.1, (hagree c).2.2.2.2.1, (hagree c).2.2.2.2.2]
  obtain ⟨h0, h1, h2, h3, h4, h5⟩ := Cert.Pre_finite_inputs.FiniteArgs.finite_of_pre _ _ _ _ _ _ (hpre c)
  exact Cert.AttnValue.RowSoftmax.rowAttn_eq_attn _ _ _ _ _ _ h0 h1 h2 h3 h4 h5

end Cert.Proof.AttnClaims

end
-- ==== Proof.Pieces.lean ====
/-
  What one grid point of the attention kernel leaves behind, as values.

  The kernel carries three buffers from one key block to the next: the running row maximum, the running normaliser and
  the running weighted sum of the values. At the first key block of a batch it first resets them (to minus infinity,
  zero and zero) and then passes the block; at the other blocks it passes the block over what the block before left; at
  the last block it also stores the quotient of the weighted sum by the normaliser into the output block. Each lemma
  below reads one of these stores back as the body's arithmetic applied to the blocks the point loaded: the new maximum
  from the score block and the old maximum, the new normaliser from those and the old normaliser, the new weighted sum
  from those, the value block, its mask and the old weighted sum, and the output from the new weighted sum and the new
  normaliser. Every load and every store goes through a whole buffer, so a load reads the buffer and the last store
  into a buffer is what it holds.
-/
import proofs.«166922_j87754771792527_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl

theorem sA0 (c : Dev nD) (i : grid0.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x1 .f32) (harg5 : arg5.IsWhole) (arg6 : Memref sig .tc .vmem S1x1x512 .f32) (harg6 : arg6.IsWhole) (arg7 : Memref sig .tc .vmem S1x512x1 .f32) (harg7 : arg7.IsWhole) (arg8 : Memref sig .tc .vmem S1x2048x64 .f32) (harg8 : arg8.IsWhole) (arg9 : Memref sig .tc .vmem S1x2048x1 .f32) (harg9 : arg9.IsWhole) (arg10 : Memref sig .tc .vmem S1x2048x1 .f32) (harg10 : arg10.IsWhole) (arg11 : Memref sig .tc .vmem S1x2048x64 .f32) (harg11 : arg11.IsWhole) (hc0 : cond0_0 i) (hc1 : ¬cond0_1 i) (x0 : Vec F S1x2048x64 .f32) (x1 : Vec F S1x512x64 .f32) (x2 : Vec F S1x512x64 .f32) (x3 : Vec F S1x2048x1 .f32) (x4 : Vec F S1x1x512 .f32) (x5 : Vec F S1x512x1 .f32)  :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay13 (k0_pay6 x0 x1 x3 x4) (k0_pay7 k0_pay1) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1x2048x1) hz3]
  simp only [View.readAt_eq_ld, harg2.read_unread, harg3.read_unread, harg4.read_unread, harg5.read_unread, harg6.read_unread, harg7.read_unread, harg9.read_unread, harg10.read_unread, harg11.read_unread, View.ld_unit_zero (S := S1x2048x64) hz3, View.ld_unit_zero (S := S1x512x64) hz3, View.ld_unit_zero (S := S1x2048x1) hz3, View.ld_unit_zero (S := S1x1x512) hz3, View.ld_unit_zero (S := S1x512x1) hz3, View.readCov_unit_zero (S := S1x2048x1) _ hz3, View.readCov_unit_zero (S := S1x2048x64) _ hz3]

theorem sA1 (c : Dev nD) (i : grid0.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x1 .f32) (harg5 : arg5.IsWhole) (arg6 : Memref sig .tc .vmem S1x1x512 .f32) (harg6 : arg6.IsWhole) (arg7 : Memref sig .tc .vmem S1x512x1 .f32) (harg7 : arg7.IsWhole) (arg8 : Memref sig .tc .vmem S1x2048x64 .f32) (harg8 : arg8.IsWhole) (arg9 : Memref sig .tc .vmem S1x2048x1 .f32) (harg9 : arg9.IsWhole) (arg10 : Memref sig .tc .vmem S1x2048x1 .f32) (harg10 : arg10.IsWhole) (arg11 : Memref sig .tc .vmem S1x2048x64 .f32) (harg11 : arg11.IsWhole) (hc0 : cond0_0 i) (hc1 : ¬cond0_1 i) (x0 : Vec F S1x2048x64 .f32) (x1 : Vec F S1x512x64 .f32) (x2 : Vec F S1x512x64 .f32) (x3 : Vec F S1x2048x1 .f32) (x4 : Vec F S1x1x512 .f32) (x5 : Vec F S1x512x1 .f32)  :
    sout0_A_1 c i arg2 harg2 arg3 harg3 arg4 harg4 arg5 harg5 arg6 harg6 arg7 harg7 arg8 harg8 arg9 harg9 arg10 harg10 arg11 harg11 hc0 hc1 x0 x1 x2 x3 x4 x5 = k0_pay11 (k0_pay6 x0 x1 x3 x4) (k0_pay7 k0_pay1) k0_pay2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1x2048x1) hz3]
  simp only [View.readAt_eq_ld, harg2.read_unread, harg3.read_unread, harg4.read_unread, harg5.read_unread, harg6.read_unread, harg7.read_unread, harg9.read_unread, harg10.read_unread, harg11.read_unread, View.ld_unit_zero (S := S1x2048x64) hz3, View.ld_unit_zero (S := S1x512x64) hz3, View.ld_unit_zero (S := S1x2048x1) hz3, View.ld_unit_zero (S := S1x1x512) hz3, View.ld_unit_zero (S := S1x512x1) hz3, View.readCov_unit_zero (S := S1x2048x1) _ hz3, View.readCov_unit_zero (S := S1x2048x64) _ hz3]

theorem sA2 (c : Dev nD) (i : grid0.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x1 .f32) (harg5 : arg5.IsWhole) (arg6 : Memref sig .tc .vmem S1x1x512 .f32) (harg6 : arg6.IsWhole) (arg7 : Memref sig .tc .vmem S1x512x1 .f32) (harg7 : arg7.IsWhole) (arg8 : Memref sig .tc .vmem S1x2048x64 .f32) (harg8 : arg8.IsWhole) (arg9 : Memref sig .tc .vmem S1x2048x1 .f32) (harg9 : arg9.IsWhole) (arg10 : Memref sig .tc .vmem S1x2048x1 .f32) (harg10 : arg10.IsWhole) (arg11 : Memref sig .tc .vmem S1x2048x64 .f32) (harg11 : arg11.IsWhole) (hc0 : cond0_0 i) (hc1 : ¬cond0_1 i) (x0 : Vec F S1x2048x64 .f32) (x1 : Vec F S1x512x64 .f32) (x2 : Vec F S1x512x64 .f32) (x3 : Vec F S1x2048x1 .f32) (x4 : Vec F S1x1x512 .f32) (x5 : Vec F S1x512x1 .f32)  :
    sout0_A_2 c i arg2 harg2 arg3 harg3 arg4 harg4 arg5 harg5 arg6 harg6 arg7 harg7 arg8 harg8 arg9 harg9 arg10 harg10 arg11 harg11 hc0 hc1 x0 x1 x2 x3 x4 x5 = k0_pay12 (k0_pay4 x2) (k0_pay5 x5) (k0_pay6 x0 x1 x3 x4) (k0_pay7 k0_pay1) k0_pay3 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1x2048x64) hz3]
  simp only [View.readAt_eq_ld, harg2.read_unread, harg3.read_unread, harg4.read_unread, harg5.read_unread, harg6.read_unread, harg7.read_unread, harg9.read_unread, harg10.read_unread, harg11.read_unread, View.ld_unit_zero (S := S1x2048x64) hz3, View.ld_unit_zero (S := S1x512x64) hz3, View.ld_unit_zero (S := S1x2048x1) hz3, View.ld_unit_zero (S := S1x1x512) hz3, View.ld_unit_zero (S := S1x512x1) hz3, View.readCov_unit_zero (S := S1x2048x1) _ hz3, View.readCov_unit_zero (S := S1x2048x64) _ hz3]

theorem sB0 (c : Dev nD) (i : grid0.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x1 .f32) (harg5 : arg5.IsWhole) (arg6 : Memref sig .tc .vmem S1x1x512 .f32) (harg6 : arg6.IsWhole) (arg7 : Memref sig .tc .vmem S1x512x1 .f32) (harg7 : arg7.IsWhole) (arg8 : Memref sig .tc .vmem S1x2048x64 .f32) (harg8 : arg8.IsWhole) (arg9 : Memref sig .tc .vmem S1x2048x1 .f32) (harg9 : arg9.IsWhole) (arg10 : Memref sig .tc .vmem S1x2048x1 .f32) (harg10 : arg10.IsWhole) (arg11 : Memref sig .tc .vmem S1x2048x64 .f32) (harg11 : arg11.IsWhole) (hc0 : ¬cond0_0 i) (hc1 : ¬cond0_1 i) (x0 : Vec F S1x2048x64 .f32) (x1 : Vec F S1x512x64 .f32) (x2 : Vec F S1x512x64 .f32) (x3 : Vec F S1x2048x1 .f32) (x4 : Vec F S1x1x512 .f32) (x5 : Vec F S1x512x1 .f32) (xs0 : Vec F S1x2048x1 .f32) (xs1 : Vec F S1x2048x1 .f32) (xs2 : Vec F S1x2048x64 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay13 (k0_pay6 x0 x1 x3 x4) (k0_pay7 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero (S := S1x2048x1) hz3]
  simp only [View.readAt_eq_ld, harg2.read_unread, harg3.read_unread, harg4.read_unread, harg5.read_unread, harg6.read_unread, harg7.read_unread, harg9.read_unread, harg10.read_unread, harg11.read_unread, View.ld_unit_zero (S := S1x2048x64) hz3, View.ld_unit_zero (S := S1x512x64) hz3, View.ld_unit_zero (S := S1x2048x1) hz3, View.ld_unit_zero (S := S1x1x512) hz3, View.ld_unit_zero (S := S1x512x1) hz3, View.readCov_unit_zero (S := S1x2048x1) _ hz3, View.readCov_unit_zero (S := S1x2048x64) _ hz3]

theorem sB1 (c : Dev nD) (i : grid0.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x1 .f32) (harg5 : arg5.IsWhole) (arg6 : Memref sig .tc .vmem S1x1x512 .f32) (harg6 : arg6.IsWhole) (arg7 : Memref sig .tc .vmem S1x512x1 .f32) (harg7 : arg7.IsWhole) (arg8 : Memref sig .tc .vmem S1x2048x64 .f32) (harg8 : arg8.IsWhole) (arg9 : Memref sig .tc .vmem S1x2048x1 .f32) (harg9 : arg9.IsWhole) (arg10 : Memref sig .tc .vmem S1x2048x1 .f32) (harg10 : arg10.IsWhole) (arg11 : Memref sig .tc .vmem S1x2048x64 .f32) (harg11 : arg11.IsWhole) (hc0 : ¬cond0_0 i) (hc1 : ¬cond0_1 i) (x0 : Vec F S1x2048x64 .f32) (x1 : Vec F S1x512x64 .f32) (x2 : Vec F S1x512x64 .f32) (x3 : Vec F S1x2048x1 .f32) (x4 : Vec F S1x1x512 .f32) (x5 : Vec F S1x512x1 .f32) (xs0 : Vec F S1x2048x1 .f32) (xs1 : Vec F S1x2048x1 .f32) (xs2 : Vec F S1x2048x64 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay11 (k0_pay6 x0 x1 x3 x4) (k0_pay7 xs0) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero (S := S1x2048x1) hz3]
  simp only [View.readAt_eq_ld, harg2.read_unread, harg3.read_unread, harg4.read_unread, harg5.read_unread, harg6.read_unread, harg7.read_unread, harg9.read_unread, harg10.read_unread, harg11.read_unread, View.ld_unit_zero (S := S1x2048x64) hz3, View.ld_unit_zero (S := S1x512x64) hz3, View.ld_unit_zero (S := S1x2048x1) hz3, View.ld_unit_zero (S := S1x1x512) hz3, View.ld_unit_zero (S := S1x512x1) hz3, View.readCov_unit_zero (S := S1x2048x1) _ hz3, View.readCov_unit_zero (S := S1x2048x64) _ hz3]

theorem sB2 (c : Dev nD) (i : grid0.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x1 .f32) (harg5 : arg5.IsWhole) (arg6 : Memref sig .tc .vmem S1x1x512 .f32) (harg6 : arg6.IsWhole) (arg7 : Memref sig .tc .vmem S1x512x1 .f32) (harg7 : arg7.IsWhole) (arg8 : Memref sig .tc .vmem S1x2048x64 .f32) (harg8 : arg8.IsWhole) (arg9 : Memref sig .tc .vmem S1x2048x1 .f32) (harg9 : arg9.IsWhole) (arg10 : Memref sig .tc .vmem S1x2048x1 .f32) (harg10 : arg10.IsWhole) (arg11 : Memref sig .tc .vmem S1x2048x64 .f32) (harg11 : arg11.IsWhole) (hc0 : ¬cond0_0 i) (hc1 : ¬cond0_1 i) (x0 : Vec F S1x2048x64 .f32) (x1 : Vec F S1x512x64 .f32) (x2 : Vec F S1x512x64 .f32) (x3 : Vec F S1x2048x1 .f32) (x4 : Vec F S1x1x512 .f32) (x5 : Vec F S1x512x1 .f32) (xs0 : Vec F S1x2048x1 .f32) (xs1 : Vec F S1x2048x1 .f32) (xs2 : Vec F S1x2048x64 .f32) :
    sout0_B_2 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay12 (k0_pay4 x2) (k0_pay5 x5) (k0_pay6 x0 x1 x3 x4) (k0_pay7 xs0) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero (S := S1x2048x64) hz3]
  simp only [View.readAt_eq_ld, harg2.read_unread, harg3.read_unread, harg4.read_unread, harg5.read_unread, harg6.read_unread, harg7.read_unread, harg9.read_unread, harg10.read_unread, harg11.read_unread, View.ld_unit_zero (S := S1x2048x64) hz3, View.ld_unit_zero (S := S1x512x64) hz3, View.ld_unit_zero (S := S1x2048x1) hz3, View.ld_unit_zero (S := S1x1x512) hz3, View.ld_unit_zero (S := S1x512x1) hz3, View.readCov_unit_zero (S := S1x2048x1) _ hz3, View.readCov_unit_zero (S := S1x2048x64) _ hz3]

theorem sC0 (c : Dev nD) (i : grid0.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x1 .f32) (harg5 : arg5.IsWhole) (arg6 : Memref sig .tc .vmem S1x1x512 .f32) (harg6 : arg6.IsWhole) (arg7 : Memref sig .tc .vmem S1x512x1 .f32) (harg7 : arg7.IsWhole) (arg8 : Memref sig .tc .vmem S1x2048x64 .f32) (harg8 : arg8.IsWhole) (arg9 : Memref sig .tc .vmem S1x2048x1 .f32) (harg9 : arg9.IsWhole) (arg10 : Memref sig .tc .vmem S1x2048x1 .f32) (harg10 : arg10.IsWhole) (arg11 : Memref sig .tc .vmem S1x2048x64 .f32) (harg11 : arg11.IsWhole) (hc0 : ¬cond0_0 i) (hc1 : cond0_1 i) (x0 : Vec F S1x2048x64 .f32) (x1 : Vec F S1x512x64 .f32) (x2 : Vec F S1x512x64 .f32) (x3 : Vec F S1x2048x1 .f32) (x4 : Vec F S1x1x512 .f32) (x5 : Vec F S1x512x1 .f32) (xs0 : Vec F S1x2048x1 .f32) (xs1 : Vec F S1x2048x1 .f32) (xs2 : Vec F S1x2048x64 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay13 (k0_pay6 x0 x1 x3 x4) (k0_pay7 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero (S := S1x2048x1) hz3]
  simp only [View.readAt_eq_ld, harg2.read_unread, harg3.read_unread, harg4.read_unread, harg5.read_unread, harg6.read_unread, harg7.read_unread, harg9.read_unread, harg10.read_unread, harg11.read_unread, View.ld_unit_zero (S := S1x2048x64) hz3, View.ld_unit_zero (S := S1x512x64) hz3, View.ld_unit_zero (S := S1x2048x1) hz3, View.ld_unit_zero (S := S1x1x512) hz3, View.ld_unit_zero (S := S1x512x1) hz3, View.readCov_unit_zero (S := S1x2048x1) _ hz3, View.readCov_unit_zero (S := S1x2048x64) _ hz3]

theorem sC1 (c : Dev nD) (i : grid0.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x1 .f32) (harg5 : arg5.IsWhole) (arg6 : Memref sig .tc .vmem S1x1x512 .f32) (harg6 : arg6.IsWhole) (arg7 : Memref sig .tc .vmem S1x512x1 .f32) (harg7 : arg7.IsWhole) (arg8 : Memref sig .tc .vmem S1x2048x64 .f32) (harg8 : arg8.IsWhole) (arg9 : Memref sig .tc .vmem S1x2048x1 .f32) (harg9 : arg9.IsWhole) (arg10 : Memref sig .tc .vmem S1x2048x1 .f32) (harg10 : arg10.IsWhole) (arg11 : Memref sig .tc .vmem S1x2048x64 .f32) (harg11 : arg11.IsWhole) (hc0 : ¬cond0_0 i) (hc1 : cond0_1 i) (x0 : Vec F S1x2048x64 .f32) (x1 : Vec F S1x512x64 .f32) (x2 : Vec F S1x512x64 .f32) (x3 : Vec F S1x2048x1 .f32) (x4 : Vec F S1x1x512 .f32) (x5 : Vec F S1x512x1 .f32) (xs0 : Vec F S1x2048x1 .f32) (xs1 : Vec F S1x2048x1 .f32) (xs2 : Vec F S1x2048x64 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay11 (k0_pay6 x0 x1 x3 x4) (k0_pay7 xs0) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero (S := S1x2048x1) hz3]
  simp only [View.readAt_eq_ld, harg2.read_unread, harg3.read_unread, harg4.read_unread, harg5.read_unread, harg6.read_unread, harg7.read_unread, harg9.read_unread, harg10.read_unread, harg11.read_unread, View.ld_unit_zero (S := S1x2048x64) hz3, View.ld_unit_zero (S := S1x512x64) hz3, View.ld_unit_zero (S := S1x2048x1) hz3, View.ld_unit_zero (S := S1x1x512) hz3, View.ld_unit_zero (S := S1x512x1) hz3, View.readCov_unit_zero (S := S1x2048x1) _ hz3, View.readCov_unit_zero (S := S1x2048x64) _ hz3]

theorem sC2 (c : Dev nD) (i : grid0.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x1 .f32) (harg5 : arg5.IsWhole) (arg6 : Memref sig .tc .vmem S1x1x512 .f32) (harg6 : arg6.IsWhole) (arg7 : Memref sig .tc .vmem S1x512x1 .f32) (harg7 : arg7.IsWhole) (arg8 : Memref sig .tc .vmem S1x2048x64 .f32) (harg8 : arg8.IsWhole) (arg9 : Memref sig .tc .vmem S1x2048x1 .f32) (harg9 : arg9.IsWhole) (arg10 : Memref sig .tc .vmem S1x2048x1 .f32) (harg10 : arg10.IsWhole) (arg11 : Memref sig .tc .vmem S1x2048x64 .f32) (harg11 : arg11.IsWhole) (hc0 : ¬cond0_0 i) (hc1 : cond0_1 i) (x0 : Vec F S1x2048x64 .f32) (x1 : Vec F S1x512x64 .f32) (x2 : Vec F S1x512x64 .f32) (x3 : Vec F S1x2048x1 .f32) (x4 : Vec F S1x1x512 .f32) (x5 : Vec F S1x512x1 .f32) (xs0 : Vec F S1x2048x1 .f32) (xs1 : Vec F S1x2048x1 .f32) (xs2 : Vec F S1x2048x64 .f32) :
    sout0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay12 (k0_pay4 x2) (k0_pay5 x5) (k0_pay6 x0 x1 x3 x4) (k0_pay7 xs0) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero (S := S1x2048x64) hz3]
  simp only [View.readAt_eq_ld, harg2.read_unread, harg3.read_unread, harg4.read_unread, harg5.read_unread, harg6.read_unread, harg7.read_unread, harg9.read_unread, harg10.read_unread, harg11.read_unread, View.ld_unit_zero (S := S1x2048x64) hz3, View.ld_unit_zero (S := S1x512x64) hz3, View.ld_unit_zero (S := S1x2048x1) hz3, View.ld_unit_zero (S := S1x1x512) hz3, View.ld_unit_zero (S := S1x512x1) hz3, View.readCov_unit_zero (S := S1x2048x1) _ hz3, View.readCov_unit_zero (S := S1x2048x64) _ hz3]

theorem oC6 (c : Dev nD) (i : grid0.Coords) (arg2 : Memref sig .tc .vmem S1x2048x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x2048x1 .f32) (harg5 : arg5.IsWhole) (arg6 : Memref sig .tc .vmem S1x1x512 .f32) (harg6 : arg6.IsWhole) (arg7 : Memref sig .tc .vmem S1x512x1 .f32) (harg7 : arg7.IsWhole) (arg8 : Memref sig .tc .vmem S1x2048x64 .f32) (harg8 : arg8.IsWhole) (arg9 : Memref sig .tc .vmem S1x2048x1 .f32) (harg9 : arg9.IsWhole) (arg10 : Memref sig .tc .vmem S1x2048x1 .f32) (harg10 : arg10.IsWhole) (arg11 : Memref sig .tc .vmem S1x2048x64 .f32) (harg11 : arg11.IsWhole) (hc0 : ¬cond0_0 i) (hc1 : cond0_1 i) (x0 : Vec F S1x2048x64 .f32) (x1 : Vec F S1x512x64 .f32) (x2 : Vec F S1x512x64 .f32) (x3 : Vec F S1x2048x1 .f32) (x4 : Vec F S1x1x512 .f32) (x5 : Vec F S1x512x1 .f32) (xs0 : Vec F S1x2048x1 .f32) (xs1 : Vec F S1x2048x1 .f32) (xs2 : Vec F S1x2048x64 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2 = k0_pay14 (k0_pay12 (k0_pay4 x2) (k0_pay5 x5) (k0_pay6 x0 x1 x3 x4) (k0_pay7 xs0) xs2) (k0_pay11 (k0_pay6 x0 x1 x3 x4) (k0_pay7 xs0) xs1) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero (S := S1x2048x64) hz3]
  simp only [View.readAt_eq_ld, harg2.read_unread, harg3.read_unread, harg4.read_unread, harg5.read_unread, harg6.read_unread, harg7.read_unread, harg9.read_unread, harg10.read_unread, harg11.read_unread, View.ld_unit_zero (S := S1x2048x64) hz3, View.ld_unit_zero (S := S1x512x64) hz3, View.ld_unit_zero (S := S1x2048x1) hz3, View.ld_unit_zero (S := S1x1x512) hz3, View.ld_unit_zero (S := S1x512x1) hz3, View.readCov_unit_zero (S := S1x2048x1) _ hz3, View.readCov_unit_zero (S := S1x2048x64) _ hz3]

end Cert.KernelIdeal.Pieces

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«166922_j87754771792527_2_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.LibMatmulNT.lean ====
/-
  A TensorCore product of an M×K matrix with an N×K matrix, each contracted along its SECOND axis (the right factor
  enters transposed without being transposed in memory), at exact arithmetic, read at an entry: the accumulator's
  entry plus the sum over the contracted axis of the products of the left factor's row entries with the right
  factor's ROW entries,

      (acc + l · rᵀ)[j₀, j₁] = acc[j₀, j₁] + Σ_k l[j₀, k] · r[j₁, k].

  Stated for any contraction record between two-axis shapes whose operand indices are "row of the result, contracted
  position" and "column of the result, contracted position" — four facts that hold by computation for the record such
  a product prints. Nothing is asked of the entries: at exact arithmetic the product is this sum by definition, and the
  only step is to re-index the one-axis contraction by its coordinate.
-/
import Idealize.ShloMosaic.Lib.ValueIdx
import Idealize.ShloMosaic.PureOps.Ideal.Laws

noncomputable section

namespace LibMatmulNT

open Idealize.ShloMosaic Idealize.ShloMosaic.ValueIdx

/-- `tpu.matmul` of an M×K by an N×K matrix, both contracted on axis 1, onto an accumulator, at entry `j`:
    `acc[j] + Σ_k l[j₀,k] · r[j₁,k]`. -/
theorem matmul_nt_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (acc : FVec Ideal ⟨2, ![M, N]⟩ .f32) (j : (⟨2, ![M, N]⟩ : Shape).Idx) :
    FloatOps.matmul (F := Ideal) D prec l r acc j
      = acc j + ∑ k : Fin K, l (ix2 (n0 := M) (n1 := K) (j 0) k) * r (ix2 (n0 := N) (n1 := K) (j 1) k) := by
  rw [Ideal.matmul_apply, ← Equiv.sum_comp (contrEquiv1 D K hr hs).symm]
  refine congrArg (acc j + ·) (Finset.sum_congr rfl fun k _ => ?_)
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := N) (n1 := K) (j 1) k := funext fun a => Fin.ext (by
    match a with
    | ⟨0, _⟩ => exact hr0 _ _
    | ⟨1, _⟩ => exact (hr1 _ _).trans hk)
  rw [e1, e2]

/-- The same into the zero splat: the accumulator's entry is `0`, so the entry is the bare sum. -/
theorem matmul_nt_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := N) (n1 := K) (j 1) k) := by
  rw [matmul_nt_apply D hr hs hl0 hl1 hr0 hr1]
  show Ideal.ofBits .f32 0x00000000#32 + _ = _
  rw [Ideal.ofBits_zero_f32, zero_add]

end LibMatmulNT

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.Step.lean ====
/-
  One key block passed by the attention kernel, entry by entry, at exact arithmetic.

  At a grid point the body loads the query block (2048 rows), one key block and one value block (512 rows each), the
  three mask blocks, and the three running buffers. Its arithmetic, read at one entry: the score of query row "q"
  against key row "k" of the block is the dot product of the two rows times one eighth plus "(1 - mq[q] * mk[k])" times
  minus 10^9; the new running maximum of row "q" is the larger of the old one and the block's largest score; the
  rescaling factor is "exp (old maximum - new maximum)" and the weight of key "k" is "exp (score - new maximum)"; the new
  normaliser is the factor times the old normaliser plus the sum of the weights; the new weighted sum at column "d" is
  the factor times the old one plus the sum over the keys of the weight times the masked value; and the output is the
  weighted sum over the normaliser. These are exactly the steps of "AttnSpec" on the block's scores and masked values.
-/
import proofs.«166922_j87754771792527_2_alg».proof.Proof.Gen.KernelIdeal.Skeleton
import proofs.«166922_j87754771792527_2_alg».proof.Proof.AttnValue
import proofs.«166922_j87754771792527_2_alg».proof.Proof.LibColumnOps
import proofs.«166922_j87754771792527_2_alg».proof.Proof.LibMatmulNT
import proofs.«166922_j87754771792527_2_alg».proof.Proof.LibMatmulIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem

namespace Cert.KernelIdeal.Step

open Cert.KernelIdeal Cert.KernelIdeal.Gen Idealize.ShloMosaic.ValueIdx Cert.AttnSpec Cert.AttnValue

/-! ## The two matrix products' index maps -/

abbrev dQK := dot_S2048x64_S512x64_S2048x512_1_1_0_0_n_n
abbrev dPV := dot_S2048x512_S512x64_S2048x64_1_0_0_1_n_n

theorem dQK_l0 (j : S2048x512.Idx) (k : dQK.contr.Idx) : (dQK.lhsIdx j k 0).val = (j 0).val := by
  unfold DotDims.lhsIdx
  rw [dif_neg (show ¬(0 : Fin S2048x64.rank) ∈ dQK.lhsBatch by decide), dif_pos (show (0 : Fin S2048x64.rank) ∈ dQK.lhsNonContracting by decide)]
  rfl
theorem dQK_l1 (j : S2048x512.Idx) (k : dQK.contr.Idx) : (dQK.lhsIdx j k 1).val = (k ⟨0, by decide⟩).val :=
  dQK.lhsIdx_val_of_single rfl j k
theorem dQK_r0 (j : S2048x512.Idx) (k : dQK.contr.Idx) : (dQK.rhsIdx j k 0).val = (j 1).val := by
  unfold DotDims.rhsIdx
  rw [dif_neg (show ¬(0 : Fin S512x64.rank) ∈ dQK.rhsBatch by decide), dif_pos (show (0 : Fin S512x64.rank) ∈ dQK.rhsNonContracting by decide)]
  rfl
theorem dQK_r1 (j : S2048x512.Idx) (k : dQK.contr.Idx) : (dQK.rhsIdx j k 1).val = (k ⟨0, by decide⟩).val :=
  dQK.rhsIdx_val_of_single rfl j k

theorem dPV_l0 (j : S2048x64.Idx) (k : dPV.contr.Idx) : (dPV.lhsIdx j k 0).val = (j 0).val := by
  unfold DotDims.lhsIdx
  rw [dif_neg (show ¬(0 : Fin S2048x512.rank) ∈ dPV.lhsBatch by decide), dif_pos (show (0 : Fin S2048x512.rank) ∈ dPV.lhsNonContracting by decide)]
  rfl
theorem dPV_l1 (j : S2048x64.Idx) (k : dPV.contr.Idx) : (dPV.lhsIdx j k 1).val = (k ⟨0, by decide⟩).val :=
  dPV.lhsIdx_val_of_single rfl j k
theorem dPV_r0 (j : S2048x64.Idx) (k : dPV.contr.Idx) : (dPV.rhsIdx j k 0).val = (k ⟨0, by decide⟩).val :=
  dPV.rhsIdx_val_of_single rfl j k
theorem dPV_r1 (j : S2048x64.Idx) (k : dPV.contr.Idx) : (dPV.rhsIdx j k 1).val = (j 1).val := by
  unfold DotDims.rhsIdx
  rw [dif_neg (show ¬(1 : Fin S512x64.rank) ∈ dPV.rhsBatch by decide), dif_pos (show (1 : Fin S512x64.rank) ∈ dPV.rhsNonContracting by decide)]
  rfl

/-! ## The block's scores and masked values -/

/-- The score of query row "q" against key row "k" of the loaded blocks. -/
def sblk (x0 : Vec Ideal S1x2048x64 .f32) (x1 : Vec Ideal S1x512x64 .f32) (x3 : Vec Ideal S1x2048x1 .f32) (x4 : Vec Ideal S1x1x512 .f32)
    (q : Fin 2048) (k : Fin 512) : EReal :=
  (∑ d : Fin 64, x0 (ix3 (0 : Fin 1) q d) * x1 (ix3 (0 : Fin 1) k d)) * cEighth
    + (cOne - x3 (ix3 (0 : Fin 1) q (0 : Fin 1)) * x4 (ix3 (0 : Fin 1) (0 : Fin 1) k)) * cNeg

/-- The masked value of key row "k", column "d", of the loaded blocks. -/
def vblk (x2 : Vec Ideal S1x512x64 .f32) (x5 : Vec Ideal S1x512x1 .f32) (d : Fin 64) (k : Fin 512) : EReal :=
  x2 (ix3 (0 : Fin 1) k d) * x5 (ix3 (0 : Fin 1) k (0 : Fin 1))

theorem pay6_apply (x0 : Vec Ideal S1x2048x64 .f32) (x1 : Vec Ideal S1x512x64 .f32) (x3 : Vec Ideal S1x2048x1 .f32) (x4 : Vec Ideal S1x1x512 .f32)
    (q : Fin 2048) (k : Fin 512) : k0_pay6 (F := Ideal) x0 x1 x3 x4 (ix2 q k) = sblk x0 x1 x3 x4 q k := by
  unfold k0_pay6 sblk
  simp only [addf_apply, mulf_apply, subf_apply, broadcast_apply, matmul]
  rw [LibMatmulNT.matmul_nt_zero_apply dQK rfl rfl dQK_l0 dQK_l1 dQK_r0 dQK_r1]
  rw [LibColumnOps.broadcastTo_col_apply, broadcastTo_1b_ab_apply, shapeCast_1ab_ab_apply, shapeCast_1ab_ab_apply]
  simp only [truncf_apply, shapeCast_1ab_ab_apply]
  rfl

/-! ## The words -/

theorem ofBits_neg_inf : Ideal.ofBits .f32 0xFF800000#32 = ⊥ := by simp [Ideal.ofBits, Ideal.ieee]

/-! ## The body's values at an entry -/

theorem pay4_apply (v9 : Vec Ideal S1x512x64 .f32) (k : Fin 512) (d : Fin 64) :
    k0_pay4 (F := Ideal) v9 (ix2 k d) = v9 (ix3 (0 : Fin 1) k d) := by
  unfold k0_pay4
  exact shapeCast_1ab_ab_apply _ _ _ _

theorem pay5_apply (v15 : Vec Ideal S1x512x1 .f32) (k : Fin 512) :
    k0_pay5 (F := Ideal) v15 (ix2 k (0 : Fin 1)) = v15 (ix3 (0 : Fin 1) k (0 : Fin 1)) := by
  unfold k0_pay5
  exact shapeCast_1ab_ab_apply _ _ _ _

theorem pay7_apply (v28 : Vec Ideal S1x2048x1 .f32) (q : Fin 2048) :
    k0_pay7 (F := Ideal) v28 (ix2 q (0 : Fin 1)) = v28 (ix3 (0 : Fin 1) q (0 : Fin 1)) := by
  unfold k0_pay7
  exact shapeCast_1ab_ab_apply _ _ _ _

/-- The new running maximum of row "q". -/
theorem pay8_apply (v27 : FVec Ideal S2048x512 .f32) (v29 : FVec Ideal S2048x1 .f32) (q : Fin 2048) :
    k0_pay8 (F := Ideal) v27 v29 (ix2 q (0 : Fin 1)) = mNext (v29 (ix2 q (0 : Fin 1))) (fun k : Fin 512 => v27 (ix2 q k)) := by
  unfold k0_pay8
  refine (maximumf_apply _ _ _).trans ?_
  refine congrArg (max (v29 (ix2 q (0 : Fin 1)))) ?_
  refine (LibKeepdims.shapeCast_col_apply _ _ q (0 : Fin 1)).trans ?_
  refine (LibColumnOps.max_axis1_apply v27 _ _ _ _ q).trans ?_
  rw [ofBits_neg_inf]
  rfl

/-- The rescaling factor of row "q". -/
theorem pay9_apply (v27 : FVec Ideal S2048x512 .f32) (v29 : FVec Ideal S2048x1 .f32) (q : Fin 2048) :
    k0_pay9 (F := Ideal) v27 v29 (ix2 q (0 : Fin 1)) = alpha (v29 (ix2 q (0 : Fin 1))) (fun k : Fin 512 => v27 (ix2 q k)) := by
  unfold k0_pay9
  exact congrArg (fun x => Ideal.exp (v29 (ix2 q (0 : Fin 1)) - x)) (pay8_apply v27 v29 q)

/-- The weight of key "k" for row "q". -/
theorem pay10_apply (v27 : FVec Ideal S2048x512 .f32) (v29 : FVec Ideal S2048x1 .f32) (q : Fin 2048) (k : Fin 512) :
    k0_pay10 (F := Ideal) v27 v29 (ix2 q k) = weight (v29 (ix2 q (0 : Fin 1))) (fun k : Fin 512 => v27 (ix2 q k)) k := by
  unfold k0_pay10
  exact congrArg (fun x => Ideal.exp (v27 (ix2 q k) - x))
    ((LibColumnOps.broadcastTo_col_apply _ _ q k).trans (pay8_apply v27 v29 q))

/-- The new normaliser of row "q". -/
theorem pay11_apply (v27 : FVec Ideal S2048x512 .f32) (v29 : FVec Ideal S2048x1 .f32) (v38 : Vec Ideal S1x2048x1 .f32) (q : Fin 2048) :
    k0_pay11 (F := Ideal) v27 v29 v38 (ix3 (0 : Fin 1) q (0 : Fin 1))
      = lNext (v29 (ix2 q (0 : Fin 1))) (v38 (ix3 (0 : Fin 1) q (0 : Fin 1))) (fun k : Fin 512 => v27 (ix2 q k)) := by
  unfold k0_pay11
  refine (shapeCast_ab_1ab_apply _ _ (0 : Fin 1) q (0 : Fin 1)).trans ?_
  refine (addf_apply _ _ _).trans ?_
  unfold lNext
  refine congrArg₂ (· + ·) ?_ ?_
  · refine (mulf_apply _ _ _).trans ?_
    exact congrArg₂ (· * ·) (pay9_apply v27 v29 q) (shapeCast_1ab_ab_apply _ _ q (0 : Fin 1))
  · refine (LibKeepdims.shapeCast_col_apply _ _ q (0 : Fin 1)).trans ?_
    refine (LibKeepdims.sum_axis1_apply _ _ _ _ _ q).trans ?_
    exact Finset.sum_congr rfl fun k _ => pay10_apply v27 v29 q k

/-- The new weighted sum of row "q", column "d". -/
theorem pay12_apply (v10 : FVec Ideal S512x64 .f32) (v16 : FVec Ideal S512x1 .f32) (v27 : FVec Ideal S2048x512 .f32) (v29 : FVec Ideal S2048x1 .f32)
    (v52 : Vec Ideal S1x2048x64 .f32) (q : Fin 2048) (d : Fin 64) :
    k0_pay12 (F := Ideal) v10 v16 v27 v29 v52 (ix3 (0 : Fin 1) q d)
      = accNext (v29 (ix2 q (0 : Fin 1))) (v52 (ix3 (0 : Fin 1) q d)) (fun k : Fin 512 => v27 (ix2 q k))
          (fun k : Fin 512 => v10 (ix2 k d) * v16 (ix2 k (0 : Fin 1))) := by
  unfold k0_pay12
  refine (shapeCast_ab_1ab_apply _ _ (0 : Fin 1) q d).trans ?_
  refine (addf_apply _ _ _).trans ?_
  unfold accNext
  refine congrArg₂ (· + ·) ?_ ?_
  · refine (mulf_apply _ _ _).trans ?_
    exact congrArg₂ (· * ·) ((LibColumnOps.broadcastTo_col_apply _ _ q d).trans (pay9_apply v27 v29 q))
      (shapeCast_1ab_ab_apply _ _ q d)
  · refine (LibMatmulIdx.matmul2_apply dPV rfl rfl dPV_l0 dPV_l1 dPV_r0 dPV_r1 none _ _ (ix2 q d)).trans ?_
    refine Finset.sum_congr rfl fun k _ => ?_
    refine congrArg₂ (· * ·) (pay10_apply v27 v29 q k) ?_
    refine (mulf_apply _ _ _).trans ?_
    exact congrArg (v10 (ix2 k d) * ·) (LibColumnOps.broadcastTo_col_apply _ _ k d)

theorem pay13_apply (v27 : FVec Ideal S2048x512 .f32) (v29 : FVec Ideal S2048x1 .f32) (q : Fin 2048) :
    k0_pay13 (F := Ideal) v27 v29 (ix3 (0 : Fin 1) q (0 : Fin 1)) = k0_pay8 (F := Ideal) v27 v29 (ix2 q (0 : Fin 1)) := by
  unfold k0_pay13
  exact shapeCast_ab_1ab_apply _ _ _ _ _

/-- The output of row "q", column "d": the weighted sum over the normaliser. -/
theorem pay14_apply (v66 : Vec Ideal S1x2048x64 .f32) (v68 : Vec Ideal S1x2048x1 .f32) (q : Fin 2048) (d : Fin 64) :
    k0_pay14 (F := Ideal) v66 v68 (ix3 (0 : Fin 1) q d) = Ideal.div (v66 (ix3 (0 : Fin 1) q d)) (v68 (ix3 (0 : Fin 1) q (0 : Fin 1))) := by
  unfold k0_pay14
  refine (shapeCast_ab_1ab_apply _ _ (0 : Fin 1) q d).trans ?_
  refine (divf_apply _ _ _).trans ?_
  exact congrArg₂ Ideal.div (shapeCast_1ab_ab_apply _ _ q d)
    ((LibColumnOps.broadcastTo_col_apply _ _ q d).trans (shapeCast_1ab_ab_apply _ _ q (0 : Fin 1)))

/-- The reset values: minus infinity, zero, zero. -/
theorem pay1_apply (i : S1x2048x1.Idx) : k0_pay1 (F := Ideal) i = ⊥ := by
  unfold k0_pay1
  exact (congrFun (shapeCast_self _ _) i).trans ofBits_neg_inf
theorem pay2_apply (i : S1x2048x1.Idx) : k0_pay2 (F := Ideal) i = 0 := by
  unfold k0_pay2
  exact (congrFun (shapeCast_self _ _) i).trans Ideal.ofBits_zero_f32
theorem pay3_apply (i : S1x2048x64.Idx) : k0_pay3 (F := Ideal) i = 0 := by
  unfold k0_pay3
  exact (congrFun (shapeCast_self _ _) i).trans Ideal.ofBits_zero_f32

/-! ## One grid point's new state from the old one -/

section NewState

variable (x0 : Vec Ideal S1x2048x64 .f32) (x1 x2 : Vec Ideal S1x512x64 .f32) (x3 : Vec Ideal S1x2048x1 .f32)
  (x4 : Vec Ideal S1x1x512 .f32) (x5 : Vec Ideal S1x512x1 .f32) (xs0 xs1 : Vec Ideal S1x2048x1 .f32) (xs2 : Vec Ideal S1x2048x64 .f32)

/-- The maximum buffer after the point, over the maximum "xs0" before it. -/
theorem mNew_apply (q : Fin 2048) :
    k0_pay13 (F := Ideal) (k0_pay6 x0 x1 x3 x4) (k0_pay7 xs0) (ix3 (0 : Fin 1) q (0 : Fin 1))
      = mNext (xs0 (ix3 (0 : Fin 1) q (0 : Fin 1))) (sblk x0 x1 x3 x4 q) := by
  refine (pay13_apply _ _ q).trans ?_
  refine (pay8_apply _ _ q).trans ?_
  exact congrArg₂ mNext (pay7_apply xs0 q) (funext fun k => pay6_apply x0 x1 x3 x4 q k)

/-- The normaliser buffer after the point, over the maximum "xs0" and the normaliser "xs1" before it. -/
theorem lNew_apply (q : Fin 2048) :
    k0_pay11 (F := Ideal) (k0_pay6 x0 x1 x3 x4) (k0_pay7 xs0) xs1 (ix3 (0 : Fin 1) q (0 : Fin 1))
      = lNext (xs0 (ix3 (0 : Fin 1) q (0 : Fin 1))) (xs1 (ix3 (0 : Fin 1) q (0 : Fin 1))) (sblk x0 x1 x3 x4 q) := by
  refine (pay11_apply _ _ xs1 q).trans ?_
  exact congrArg₂ (fun a s => lNext a (xs1 (ix3 (0 : Fin 1) q (0 : Fin 1))) s) (pay7_apply xs0 q)
    (funext fun k => pay6_apply x0 x1 x3 x4 q k)

/-- The weighted-sum buffer after the point, over the maximum "xs0" and the weighted sum "xs2" before it. -/
theorem aNew_apply (q : Fin 2048) (d : Fin 64) :
    k0_pay12 (F := Ideal) (k0_pay4 x2) (k0_pay5 x5) (k0_pay6 x0 x1 x3 x4) (k0_pay7 xs0) xs2 (ix3 (0 : Fin 1) q d)
      = accNext (xs0 (ix3 (0 : Fin 1) q (0 : Fin 1))) (xs2 (ix3 (0 : Fin 1) q d)) (sblk x0 x1 x3 x4 q) (vblk x2 x5 d) := by
  refine (pay12_apply _ _ _ _ xs2 q d).trans ?_
  have e1 := pay7_apply xs0 q
  have e2 : (fun k : Fin 512 => k0_pay6 (F := Ideal) x0 x1 x3 x4 (ix2 q k)) = sblk x0 x1 x3 x4 q :=
    funext fun k => pay6_apply x0 x1 x3 x4 q k
  have e3 : (fun k : Fin 512 => k0_pay4 (F := Ideal) x2 (ix2 k d) * k0_pay5 (F := Ideal) x5 (ix2 k (0 : Fin 1))) = vblk x2 x5 d :=
    funext fun k => congrArg₂ (· * ·) (pay4_apply x2 k d) (pay5_apply x5 k)
  rw [e1, e2, e3]

end NewState

/-! ## The loaded blocks as blocks of the arrays -/

/-- If the loaded query, key and mask blocks are batch "b"'s rows and key block "j" of the arrays, the block's scores
    are block "j" of row "q"'s scores. -/
theorem sblk_eq_blockScores (x0 : Vec Ideal S1x2048x64 .f32) (x1 : Vec Ideal S1x512x64 .f32) (x3 : Vec Ideal S1x2048x1 .f32)
    (x4 : Vec Ideal S1x1x512 .f32) (Q K : Arr3) (mq mk : Arr2) (b : Fin 8) (j : Fin 4) (q : Fin 2048)
    (h0 : ∀ (q : Fin 2048) (d : Fin 64), x0 (ix3 (0 : Fin 1) q d) = Q (ix3 b q d))
    (h1 : ∀ (k : Fin 512) (d : Fin 64), x1 (ix3 (0 : Fin 1) k d) = K (ix3 b (keyPos j k) d))
    (h3 : ∀ q : Fin 2048, x3 (ix3 (0 : Fin 1) q (0 : Fin 1)) = mq (ix2 b q))
    (h4 : ∀ k : Fin 512, x4 (ix3 (0 : Fin 1) (0 : Fin 1) k) = mk (ix2 b (keyPos j k))) :
    sblk x0 x1 x3 x4 q = blockScores Q K mq mk b q j.val := by
  funext k
  unfold sblk blockScores
  rw [dif_pos j.isLt]
  unfold score
  simp only [h0, h1, h3, h4]

/-- Likewise for the masked values. -/
theorem vblk_eq_blockValues (x2 : Vec Ideal S1x512x64 .f32) (x5 : Vec Ideal S1x512x1 .f32) (V : Arr3) (mv : Arr2)
    (b : Fin 8) (j : Fin 4) (d : Fin 64)
    (h2 : ∀ (k : Fin 512) (d : Fin 64), x2 (ix3 (0 : Fin 1) k d) = V (ix3 b (keyPos j k) d))
    (h5 : ∀ k : Fin 512, x5 (ix3 (0 : Fin 1) k (0 : Fin 1)) = mv (ix2 b (keyPos j k))) :
    vblk x2 x5 d = blockValues V mv b d j.val := by
  funext k
  unfold vblk blockValues
  rw [dif_pos j.isLt]
  unfold value
  simp only [h2, h5]

end Cert.KernelIdeal.Step

end
-- ==== Proof.Cases.lean ====
/-
  What the three carried buffers and the output block hold after a grid point, entry by entry, in terms of what they
  held after the point before.

  A grid point is a pair (batch, key block). At the first key block of a batch the kernel resets the running maximum to
  minus infinity and the normaliser and the weighted sum to zero, and passes the block; so after the point the three
  buffers hold one step of the running merge from (minus infinity, 0, 0) on the block's scores and masked values. At
  the other key blocks they hold one step of the merge from what the point before left. At the last key block the
  output block holds, entry by entry, the weighted sum over the normaliser.
-/
import proofs.«166922_j87754771792527_2_alg».proof.Proof.Gen.KernelIdeal.Frame
import proofs.«166922_j87754771792527_2_alg».proof.Proof.Pieces
import proofs.«166922_j87754771792527_2_alg».proof.Proof.Step

noncomputable section

open Idealize.ShloMosaic Idealize.ShloMosaic.TcCoe Idealize.SL.Sem

namespace Cert.KernelIdeal.Cases

open Cert.KernelIdeal Cert.KernelIdeal.Gen Idealize.ShloMosaic.ValueIdx Cert.AttnSpec Cert.KernelIdeal.Step

variable (m : (ℓ : Loc nD τ sig) → Buf (Elt Ideal) ℓ) (c : Dev nD)

/-- At the first key block of a batch: one step from the reset values. -/
theorem first_block (t : Fin cfg0.N) (h0 : t.val % 4 = 0) (h1 : ¬t.val % 4 = 3) (q : Fin 2048) :
    (outsAt0 m c t.val t.isLt).2.1 (ix3 (0 : Fin 1) q (0 : Fin 1)) = mNext ⊥ (sblk (iblk m c 0 t) (iblk m c 1 t) (iblk m c 3 t) (iblk m c 4 t) q)
    ∧ (outsAt0 m c t.val t.isLt).2.2.1 (ix3 (0 : Fin 1) q (0 : Fin 1)) = lNext ⊥ 0 (sblk (iblk m c 0 t) (iblk m c 1 t) (iblk m c 3 t) (iblk m c 4 t) q)
    ∧ ∀ d : Fin 64, (outsAt0 m c t.val t.isLt).2.2.2 (ix3 (0 : Fin 1) q d) = accNext ⊥ 0 (sblk (iblk m c 0 t) (iblk m c 1 t) (iblk m c 3 t) (iblk m c 4 t) q) (vblk (iblk m c 2 t) (iblk m c 5 t) d) := by
  rw [outsAt0_A m c t h0 h1]
  dsimp only
  refine ⟨?_, ?_, fun d => ?_⟩
  · refine (congrFun (Pieces.sA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)) (ix3 (0 : Fin 1) q (0 : Fin 1))).trans ?_
    refine (mNew_apply (iblk m c 0 t) (iblk m c 1 t) (iblk m c 3 t) (iblk m c 4 t) (k0_pay1 (F := Ideal)) q).trans ?_
    rw [pay1_apply]
  · refine (congrFun (Pieces.sA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)) (ix3 (0 : Fin 1) q (0 : Fin 1))).trans ?_
    refine (lNew_apply (iblk m c 0 t) (iblk m c 1 t) (iblk m c 3 t) (iblk m c 4 t) (k0_pay1 (F := Ideal)) (k0_pay2 (F := Ideal)) q).trans ?_
    rw [pay1_apply, pay2_apply]
  · refine (congrFun (Pieces.sA2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)) (ix3 (0 : Fin 1) q d)).trans ?_
    refine (aNew_apply (iblk m c 0 t) (iblk m c 1 t) (iblk m c 2 t) (iblk m c 3 t) (iblk m c 4 t) (iblk m c 5 t) (k0_pay1 (F := Ideal)) (k0_pay3 (F := Ideal)) q d).trans ?_
    rw [pay1_apply, pay3_apply]

/-- At a later key block: one step from what the point before left. -/
theorem later_block (t : Fin cfg0.N) (h0 : ¬t.val % 4 = 0) (q : Fin 2048) :
    (outsAt0 m c t.val t.isLt).2.1 (ix3 (0 : Fin 1) q (0 : Fin 1))
        = mNext ((outsAt0 m c (t.val - 1) (Nat.lt_of_le_of_lt (Nat.sub_le _ _) t.isLt)).2.1 (ix3 (0 : Fin 1) q (0 : Fin 1))) (sblk (iblk m c 0 t) (iblk m c 1 t) (iblk m c 3 t) (iblk m c 4 t) q)
    ∧ (outsAt0 m c t.val t.isLt).2.2.1 (ix3 (0 : Fin 1) q (0 : Fin 1))
        = lNext ((outsAt0 m c (t.val - 1) (Nat.lt_of_le_of_lt (Nat.sub_le _ _) t.isLt)).2.1 (ix3 (0 : Fin 1) q (0 : Fin 1))) ((outsAt0 m c (t.val - 1) (Nat.lt_of_le_of_lt (Nat.sub_le _ _) t.isLt)).2.2.1 (ix3 (0 : Fin 1) q (0 : Fin 1))) (sblk (iblk m c 0 t) (iblk m c 1 t) (iblk m c 3 t) (iblk m c 4 t) q)
    ∧ ∀ d : Fin 64, (outsAt0 m c t.val t.isLt).2.2.2 (ix3 (0 : Fin 1) q d)
        = accNext ((outsAt0 m c (t.val - 1) (Nat.lt_of_le_of_lt (Nat.sub_le _ _) t.isLt)).2.1 (ix3 (0 : Fin 1) q (0 : Fin 1))) ((outsAt0 m c (t.val - 1) (Nat.lt_of_le_of_lt (Nat.sub_le _ _) t.isLt)).2.2.2 (ix3 (0 : Fin 1) q d)) (sblk (iblk m c 0 t) (iblk m c 1 t) (iblk m c 3 t) (iblk m c 4 t) q) (vblk (iblk m c 2 t) (iblk m c 5 t) d) := by
  by_cases h1 : t.val % 4 = 3
  · rw [outsAt0_C m c t h0 h1]
    dsimp only
    refine ⟨?_, ?_, fun d => ?_⟩
    · refine (congrFun (Pieces.sC0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix3 (0 : Fin 1) q (0 : Fin 1))).trans ?_
      exact mNew_apply (iblk m c 0 t) (iblk m c 1 t) (iblk m c 3 t) (iblk m c 4 t) (outsAt0 m c (t.val - 1) (Nat.lt_of_le_of_lt (Nat.sub_le _ _) t.isLt)).2.1 q
    · refine (congrFun (Pieces.sC1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix3 (0 : Fin 1) q (0 : Fin 1))).trans ?_
      exact lNew_apply (iblk m c 0 t) (iblk m c 1 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 q
    · refine (congrFun (Pieces.sC2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix3 (0 : Fin 1) q d)).trans ?_
      exact aNew_apply (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.2 q d
  · rw [outsAt0_B m c t h0 h1]
    dsimp only
    refine ⟨?_, ?_, fun d => ?_⟩
    · refine (congrFun (Pieces.sB0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix3 (0 : Fin 1) q (0 : Fin 1))).trans ?_
      exact mNew_apply (iblk m c 0 t) (iblk m c 1 t) (iblk m c 3 t) (iblk m c 4 t) (outsAt0 m c (t.val - 1) (Nat.lt_of_le_of_lt (Nat.sub_le _ _) t.isLt)).2.1 q
    · refine (congrFun (Pieces.sB1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix3 (0 : Fin 1) q (0 : Fin 1))).trans ?_
      exact lNew_apply (iblk m c 0 t) (iblk m c 1 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 q
    · refine (congrFun (Pieces.sB2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix3 (0 : Fin 1) q d)).trans ?_
      exact aNew_apply (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.2 q d

/-- At the last key block of a batch the output block holds the weighted sum over the normaliser. -/
theorem last_block_out (t : Fin cfg0.N) (h0 : ¬t.val % 4 = 0) (h1 : t.val % 4 = 3) (q : Fin 2048) (d : Fin 64) :
    (outsAt0 m c t.val t.isLt).1 (ix3 (0 : Fin 1) q d)
      = Ideal.div ((outsAt0 m c t.val t.isLt).2.2.2 (ix3 (0 : Fin 1) q d)) ((outsAt0 m c t.val t.isLt).2.2.1 (ix3 (0 : Fin 1) q (0 : Fin 1))) := by
  rw [outsAt0_C m c t h0 h1]
  dsimp only
  refine (congrFun (Pieces.oC6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix3 (0 : Fin 1) q d)).trans ?_
  refine (pay14_apply _ _ q d).trans ?_
  rw [Pieces.sC2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, Pieces.sC1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]

end Cert.KernelIdeal.Cases

end
-- ==== Proof.Blocks.lean ====
/-
  The kernel's blocks at explicit coordinates, and its output array from what the writing points leave.

  The grid has 8 × 4 = 32 points; point "t" has batch "t / 4" and key block "t % 4". The three [8, 2048, 64] arguments
  are staged as the whole query rows of the batch (block [1, 2048, 64] at block index (t / 4, 0, 0)) and as the 512 key
  and value rows of the key block (block [1, 512, 64] at (t / 4, t % 4, 0)): row "k" of the block is row
  "512 * (t % 4) + k" of the batch. The three [8, 2048] masks reach the kernel reshaped, to [8, 2048, 1] (blocks
  [1, 2048, 1] at (t / 4, 0, 0) and [1, 512, 1] at (t / 4, t % 4, 0)) and to [8, 1, 2048] (block [1, 1, 512] at
  (t / 4, 0, t % 4)); a reshape keeps the row-major position, so each block entry is the mask at (batch, row).
  A block's coordinate on an axis is always (block index) × (block size) + (coordinate inside the block).

  The output [8, 2048, 64] is written back in blocks [1, 2048, 64] at block index (t / 4, 0, 0), at the points with
  "t % 4 = 3" only. Every index "(b, q, d)" lies in the block of the point "4 * b + 3", so if at every writing point the
  block left for the output is a function "G" read at "(t / 4, q, d)", the array after the run is "G".
-/
import proofs.«166922_j87754771792527_2_alg».proof.Proof.Gen.KernelIdeal.Value
import proofs.«166922_j87754771792527_2_alg».proof.Proof.AttnValue
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ) (c : Dev nD)

/-! ## The points' coordinates and the printed index maps -/

/-- The batch of grid point "t". -/
def bOf (t : Fin cfg0.N) : Fin 8 := ⟨t.val / 4, by have h := lt_of_lt_of_eq t.isLt (show cfg0.N = 32 from N_0); omega⟩

/-- The key block of grid point "t". -/
def jOf (t : Fin cfg0.N) : Fin 4 := ⟨t.val % 4, by omega⟩

/-- The block indices of the seven windows at point "t", decided over the 32 points. -/
theorem idx0 : ∀ t : Fin cfg0.N, win0_0.index t (0 : Fin 3) = t.val / 4 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val / 4 ∧ win0_1.index t (1 : Fin 3) = t.val % 4 ∧ win0_1.index t (2 : Fin 3) = 0 :=
  (by decide +kernel : ∀ t : Fin grid0.N, _)
theorem idx2 : ∀ t : Fin cfg0.N, win0_2.index t (0 : Fin 3) = t.val / 4 ∧ win0_2.index t (1 : Fin 3) = t.val % 4 ∧ win0_2.index t (2 : Fin 3) = 0 :=
  (by decide +kernel : ∀ t : Fin grid0.N, _)
theorem idx3 : ∀ t : Fin cfg0.N, win0_3.index t (0 : Fin 3) = t.val / 4 ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val / 4 ∧ win0_4.index t (1 : Fin 3) = 0 ∧ win0_4.index t (2 : Fin 3) = t.val % 4 :=
  (by decide +kernel : ∀ t : Fin grid0.N, _)
theorem idx5 : ∀ t : Fin cfg0.N, win0_5.index t (0 : Fin 3) = t.val / 4 ∧ win0_5.index t (1 : Fin 3) = t.val % 4 ∧ win0_5.index t (2 : Fin 3) = 0 :=
  (by decide +kernel : ∀ t : Fin grid0.N, _)
theorem idx6 : ∀ t : Fin cfg0.N, win0_6.index t (0 : Fin 3) = t.val / 4 ∧ win0_6.index t (1 : Fin 3) = 0 ∧ win0_6.index t (2 : Fin 3) = 0 :=
  (by decide +kernel : ∀ t : Fin grid0.N, _)

/-! ## The three reshaped masks as the region finds them -/

theorem V_main_v0 : (V m c main_v0 : S8x2048x1.Idx → Elt F .f32)
    = shapeCast S8x2048x1 (m ((c : Thread nD τ).loc main_arg3) : S8x2048.Idx → Elt F .f32) shapeCasts_S8x2048_S8x2048x1 := by
  dsimp only [Gen.V, Gen.hostOps0]; after_results; rfl

theorem V_main_v1 : (V m c main_v1 : S8x1x2048.Idx → Elt F .f32)
    = shapeCast S8x1x2048 (m ((c : Thread nD τ).loc main_arg4) : S8x2048.Idx → Elt F .f32) shapeCasts_S8x2048_S8x1x2048 := by
  dsimp only [Gen.V, Gen.hostOps0]; after_results; rfl

theorem V_main_v2 : (V m c main_v2 : S8x2048x1.Idx → Elt F .f32)
    = shapeCast S8x2048x1 (m ((c : Thread nD τ).loc main_arg5) : S8x2048.Idx → Elt F .f32) shapeCasts_S8x2048_S8x2048x1 := by
  dsimp only [Gen.V, Gen.hostOps0]; after_results; rfl

/-! ## The input blocks, entry by entry -/

/-- The query block of point "t" is the batch's rows. -/
theorem iblk0_at (t : Fin cfg0.N) (x : S1x2048x64.Idx) (k : S8x2048x64.Idx)
    (hk0 : (k 0).val = t.val / 4) (hk1 : (k 1).val = (x 1).val) (hk2 : (k 2).val = (x 2).val) :
    (iblk m c 0 t : Vec F S1x2048x64 .f32) x = (m ((c : Thread nD τ).loc main_arg0) : S8x2048x64.Idx → Elt F .f32) k := by
  obtain ⟨e0, e1, e2⟩ := idx0 t
  unfold iblk
  rw [View.read_apply]
  show V m c main_arg0 _ = m (c.tc.loc main_arg0) _
  rw [V_main_arg0]
  congr 1
  funext a
  apply Fin.ext
  have hx0 : (x 0).val < 1 := (x 0).isLt
  match a with
  | ⟨0, _⟩ => show win0_0.index t 0 * 1 + 1 * (x 0).val = (k 0).val; rw [e0, hk0]; omega
  | ⟨1, _⟩ => show win0_0.index t 1 * 2048 + 1 * (x 1).val = (k 1).val; rw [e1, hk1]; omega
  | ⟨2, _⟩ => show win0_0.index t 2 * 64 + 1 * (x 2).val = (k 2).val; rw [e2, hk2]; omega

/-- The key block of point "t": row "r" of the block is row "512 * (t % 4) + r" of the batch. -/
theorem iblk1_at (t : Fin cfg0.N) (x : S1x512x64.Idx) (k : S8x2048x64.Idx)
    (hk0 : (k 0).val = t.val / 4) (hk1 : (k 1).val = 512 * (t.val % 4) + (x 1).val) (hk2 : (k 2).val = (x 2).val) :
    (iblk m c 1 t : Vec F S1x512x64 .f32) x = (m ((c : Thread nD τ).loc main_arg1) : S8x2048x64.Idx → Elt F .f32) k := by
  obtain ⟨e0, e1, e2⟩ := idx1 t
  unfold iblk
  rw [View.read_apply]
  show V m c main_arg1 _ = m (c.tc.loc main_arg1) _
  rw [V_main_arg1]
  congr 1
  funext a
  apply Fin.ext
  have hx0 : (x 0).val < 1 := (x 0).isLt
  match a with
  | ⟨0, _⟩ => show win0_1.index t 0 * 1 + 1 * (x 0).val = (k 0).val; rw [e0, hk0]; omega
  | ⟨1, _⟩ => show win0_1.index t 1 * 512 + 1 * (x 1).val = (k 1).val; rw [e1, hk1]; omega
  | ⟨2, _⟩ => show win0_1.index t 2 * 64 + 1 * (x 2).val = (k 2).val; rw [e2, hk2]; omega

/-- The value block of point "t", likewise. -/
theorem iblk2_at (t : Fin cfg0.N) (x : S1x512x64.Idx) (k : S8x2048x64.Idx)
    (hk0 : (k 0).val = t.val / 4) (hk1 : (k 1).val = 512 * (t.val % 4) + (x 1).val) (hk2 : (k 2).val = (x 2).val) :
    (iblk m c 2 t : Vec F S1x512x64 .f32) x = (m ((c : Thread nD τ).loc main_arg2) : S8x2048x64.Idx → Elt F .f32) k := by
  obtain ⟨e0, e1, e2⟩ := idx2 t
  unfold iblk
  rw [View.read_apply]
  show V m c main_arg2 _ = m (c.tc.loc main_arg2) _
  rw [V_main_arg2]
  congr 1
  funext a
  apply Fin.ext
  have hx0 : (x 0).val < 1 := (x 0).isLt
  match a with
  | ⟨0, _⟩ => show win0_2.index t 0 * 1 + 1 * (x 0).val = (k 0).val; rw [e0, hk0]; omega
  | ⟨1, _⟩ => show win0_2.index t 1 * 512 + 1 * (x 1).val = (k 1).val; rw [e1, hk1]; omega
  | ⟨2, _⟩ => show win0_2.index t 2 * 64 + 1 * (x 2).val = (k 2).val; rw [e2, hk2]; omega

/-- The query mask's block of point "t": the [8, 2048] mask reshaped to [8, 2048, 1], the batch's column. -/
theorem iblk3_at (t : Fin cfg0.N) (x : S1x2048x1.Idx) (k : S8x2048.Idx)
    (hk0 : (k 0).val = t.val / 4) (hk1 : (k 1).val = (x 1).val) :
    (iblk m c 3 t : Vec F S1x2048x1 .f32) x = (m ((c : Thread nD τ).loc main_arg3) : S8x2048.Idx → Elt F .f32) k := by
  obtain ⟨e0, e1, e2⟩ := idx3 t
  unfold iblk
  rw [View.read_apply]
  show V m c main_v0 _ = _
  rw [V_main_v0]
  refine shapeCast_apply _ _ _ k ?_
  rw [Shape.rowMajor_val_two, Shape.rowMajor_val_three]
  show (k 0).val * 2048 + (k 1).val
    = ((win0_3.index t 0 * 1 + 1 * (x 0).val) * 2048 + (win0_3.index t 1 * 2048 + 1 * (x 1).val)) * 1
      + (win0_3.index t 2 * 1 + 1 * (x 2).val)
  have hx0 : (x 0).val < 1 := (x 0).isLt
  have hx2 : (x 2).val < 1 := (x 2).isLt
  rw [e0, e1, e2, hk0, hk1]
  omega

/-- The key mask's block of point "t": the [8, 2048] mask reshaped to [8, 1, 2048], 512 places of the batch's row. -/
theorem iblk4_at (t : Fin cfg0.N) (x : S1x1x512.Idx) (k : S8x2048.Idx)
    (hk0 : (k 0).val = t.val / 4) (hk1 : (k 1).val = 512 * (t.val % 4) + (x 2).val) :
    (iblk m c 4 t : Vec F S1x1x512 .f32) x = (m ((c : Thread nD τ).loc main_arg4) : S8x2048.Idx → Elt F .f32) k := by
  obtain ⟨e0, e1, e2⟩ := idx4 t
  unfold iblk
  rw [View.read_apply]
  show V m c main_v1 _ = _
  rw [V_main_v1]
  refine shapeCast_apply _ _ _ k ?_
  rw [Shape.rowMajor_val_two, Shape.rowMajor_val_three]
  show (k 0).val * 2048 + (k 1).val
    = ((win0_4.index t 0 * 1 + 1 * (x 0).val) * 1 + (win0_4.index t 1 * 1 + 1 * (x 1).val)) * 2048
      + (win0_4.index t 2 * 512 + 1 * (x 2).val)
  have hx0 : (x 0).val < 1 := (x 0).isLt
  have hx1 : (x 1).val < 1 := (x 1).isLt
  rw [e0, e1, e2, hk0, hk1]
  omega

/-- The value mask's block of point "t": the [8, 2048] mask reshaped to [8, 2048, 1], 512 places of the batch's column. -/
theorem iblk5_at (t : Fin cfg0.N) (x : S1x512x1.Idx) (k : S8x2048.Idx)
    (hk0 : (k 0).val = t.val / 4) (hk1 : (k 1).val = 512 * (t.val % 4) + (x 1).val) :
    (iblk m c 5 t : Vec F S1x512x1 .f32) x = (m ((c : Thread nD τ).loc main_arg5) : S8x2048.Idx → Elt F .f32) k := by
  obtain ⟨e0, e1, e2⟩ := idx5 t
  unfold iblk
  rw [View.read_apply]
  show V m c main_v2 _ = _
  rw [V_main_v2]
  refine shapeCast_apply _ _ _ k ?_
  rw [Shape.rowMajor_val_two, Shape.rowMajor_val_three]
  show (k 0).val * 2048 + (k 1).val
    = ((win0_5.index t 0 * 1 + 1 * (x 0).val) * 2048 + (win0_5.index t 1 * 512 + 1 * (x 1).val)) * 1
      + (win0_5.index t 2 * 1 + 1 * (x 2).val)
  have hx0 : (x 0).val < 1 := (x 0).isLt
  have hx2 : (x 2).val < 1 := (x 2).isLt
  rw [e0, e1, e2, hk0, hk1]
  omega

/-! ## The same at explicit coordinates -/

theorem iblk0_apply (t : Fin cfg0.N) (q : Fin 2048) (d : Fin 64) :
    (iblk m c 0 t : Vec F S1x2048x64 .f32) (ix3 (0 : Fin 1) q d)
      = (m ((c : Thread nD τ).loc main_arg0) : S8x2048x64.Idx → Elt F .f32) (ix3 (bOf t) q d) :=
  iblk0_at m c t _ _ rfl rfl rfl

theorem iblk1_apply (t : Fin cfg0.N) (k : Fin 512) (d : Fin 64) :
    (iblk m c 1 t : Vec F S1x512x64 .f32) (ix3 (0 : Fin 1) k d)
      = (m ((c : Thread nD τ).loc main_arg1) : S8x2048x64.Idx → Elt F .f32) (ix3 (bOf t) (Cert.AttnValue.keyPos (jOf t) k) d) :=
  iblk1_at m c t _ _ rfl rfl rfl

theorem iblk2_apply (t : Fin cfg0.N) (k : Fin 512) (d : Fin 64) :
    (iblk m c 2 t : Vec F S1x512x64 .f32) (ix3 (0 : Fin 1) k d)
      = (m ((c : Thread nD τ).loc main_arg2) : S8x2048x64.Idx → Elt F .f32) (ix3 (bOf t) (Cert.AttnValue.keyPos (jOf t) k) d) :=
  iblk2_at m c t _ _ rfl rfl rfl

theorem iblk3_apply (t : Fin cfg0.N) (q : Fin 2048) :
    (iblk m c 3 t : Vec F S1x2048x1 .f32) (ix3 (0 : Fin 1) q (0 : Fin 1))
      = (m ((c : Thread nD τ).loc main_arg3) : S8x2048.Idx → Elt F .f32) (ix2 (bOf t) q) :=
  iblk3_at m c t _ _ rfl rfl

theorem iblk4_apply (t : Fin cfg0.N) (k : Fin 512) :
    (iblk m c 4 t : Vec F S1x1x512 .f32) (ix3 (0 : Fin 1) (0 : Fin 1) k)
      = (m ((c : Thread nD τ).loc main_arg4) : S8x2048.Idx → Elt F .f32) (ix2 (bOf t) (Cert.AttnValue.keyPos (jOf t) k)) :=
  iblk4_at m c t _ _ rfl rfl

theorem iblk5_apply (t : Fin cfg0.N) (k : Fin 512) :
    (iblk m c 5 t : Vec F S1x512x1 .f32) (ix3 (0 : Fin 1) k (0 : Fin 1))
      = (m ((c : Thread nD τ).loc main_arg5) : S8x2048.Idx → Elt F .f32) (ix2 (bOf t) (Cert.AttnValue.keyPos (jOf t) k)) :=
  iblk5_at m c t _ _ rfl rfl

/-! ## From the writing points to the output array -/

/-- An index of the output array is in point "t"'s block iff each coordinate is in the block's range on its axis. -/
theorem mem_blk6 (t : Fin cfg0.N) (i : S8x2048x64.Idx) :
    i ∈ ((cfg0.win 6).blk t).view.set
      ↔ ∀ a : Fin 3, win0_6.index t a * S1x2048x64.size a ≤ (i a).val
          ∧ (i a).val < win0_6.index t a * S1x2048x64.size a + S1x2048x64.size a := by
  show i ∈ ((View.whole main_v3).slice (win0_6.rect t)).set ↔ _
  rw [View.set_slice_whole, Rect.mem_set_unit]
  exact Iff.rfl

/-- A block that is "G" read at (t / 4, q, d) is the output array "G" read through point "t"'s block. -/
theorem read_blk6 (t : Fin cfg0.N) (X : Vec F S1x2048x64 .f32) (G : S8x2048x64.Idx → Elt F .f32)
    (h : ∀ (q : Fin 2048) (d : Fin 64), X (ix3 (0 : Fin 1) q d) = G (ix3 (bOf t) q d)) (y : S1x2048x64.Idx) :
    X y = G (((cfg0.win 6).blk t).view.emb y) := by
  obtain ⟨e0, e1, e2⟩ := idx6 t
  obtain ⟨u, q, d, rfl⟩ : ∃ (u : Fin 1) (q : Fin 2048) (d : Fin 64), y = ix3 u q d := ⟨y 0, y 1, y 2, eq_ix3 y⟩
  obtain rfl : u = 0 := Subsingleton.elim _ _
  rw [h]
  congr 1
  funext a
  apply Fin.ext
  match a with
  | ⟨0, _⟩ => show t.val / 4 = win0_6.index t 0 * 1 + 1 * 0; rw [e0]; omega
  | ⟨1, _⟩ => show q.val = win0_6.index t 1 * 2048 + 1 * q.val; rw [e1]; omega
  | ⟨2, _⟩ => show d.val = win0_6.index t 2 * 64 + 1 * d.val; rw [e2]; omega

/-- What a writing point writes back is its block of "G". -/
theorem flushed6_eq (G : S8x2048x64.Idx → Elt F .f32)
    (hG : ∀ (t : Fin cfg0.N), t.val % 4 = 3 → ∀ (q : Fin 2048) (d : Fin 64),
      (outsAt0 m c t.val t.isLt).1 (ix3 (0 : Fin 1) q d) = G (ix3 (bOf t) q d))
    (t : Fin cfg0.N) (hf : (cfg0.win 6).flush t = true) :
    (dats m 0 c).flushed 6 t = ((cfg0.win 6).blk t).view.read (Elt F) G := by
  rw [Value.flushed6]
  funext y
  rw [View.read_apply]
  exact read_blk6 t (outsAt0 m c t.val t.isLt).1 G (hG t ((flush0_6 t).mp hf)) y

/-- THE OUTPUT ARRAY after the run is "G", when every writing point leaves "G" read at its batch in the output's block:
    index (b, q, d) is in the block of the point 4 * b + 3. -/
theorem final6 (G : S8x2048x64.Idx → Elt F .f32)
    (hG : ∀ (t : Fin cfg0.N), t.val % 4 = 3 → ∀ (q : Fin 2048) (d : Fin 64),
      (outsAt0 m c t.val t.isLt).1 (ix3 (0 : Fin 1) q d) = G (ix3 (bOf t) q d)) :
    (dats m 0 c).arrAt 6 cfg0.N = G :=
  (dats m 0 c).arrAt_eq_of_cover 6 G (fun t hf => flushed6_eq m c G hG t hf) (fun i => by
    have hi0 : (i 0).val < 8 := (i 0).isLt
    have hi1 : (i 1).val < 2048 := (i 1).isLt
    have hi2 : (i 2).val < 64 := (i 2).isLt
    have hN : cfg0.N = 32 := N_0
    have ht : 4 * (i 0).val + 3 < cfg0.N := by rw [hN]; omega
    refine ⟨⟨4 * (i 0).val + 3, ht⟩, (flush0_6 _).mpr (by show (4 * (i 0).val + 3) % 4 = 3; omega), ?_⟩
    rw [mem_blk6]
    obtain ⟨e0, e1, e2⟩ := idx6 ⟨4 * (i 0).val + 3, ht⟩
    intro a
    match a with
    | ⟨0, _⟩ =>
      show win0_6.index ⟨4 * (i 0).val + 3, ht⟩ 0 * 1 ≤ (i 0).val ∧ (i 0).val < win0_6.index ⟨4 * (i 0).val + 3, ht⟩ 0 * 1 + 1
      rw [e0]
      show (4 * (i 0).val + 3) / 4 * 1 ≤ (i 0).val ∧ (i 0).val < (4 * (i 0).val + 3) / 4 * 1 + 1
      omega
    | ⟨1, _⟩ =>
      show win0_6.index ⟨4 * (i 0).val + 3, ht⟩ 1 * 2048 ≤ (i 1).val ∧ (i 1).val < win0_6.index ⟨4 * (i 0).val + 3, ht⟩ 1 * 2048 + 2048
      rw [e1]
      omega
    | ⟨2, _⟩ =>
      show win0_6.index ⟨4 * (i 0).val + 3, ht⟩ 2 * 64 ≤ (i 2).val ∧ (i 2).val < win0_6.index ⟨4 * (i 0).val + 3, ht⟩ 2 * 64 + 64
      rw [e2]
      omega)

end Cert.KernelIdeal.Blocks

end
-- ==== Proof.Invariant.lean ====
/-
  The carried buffers after every grid point, and the output block after the last key block of a batch.

  Grid point "n" is batch "n / 4", key block "n % 4". By induction on "n": after the point, at row "q", the running
  maximum and normaliser are those of "AttnSpec" after "n % 4 + 1" blocks of row "q"'s scores in that batch, and the
  weighted sum at column "d" is "AttnSpec"'s after as many blocks of the masked values' column "d". At the first key
  block of a batch the kernel resets, so the count starts again at one; at the others the step continues from what the
  point before left, which belongs to the same batch. After the fourth block the output block is the weighted sum over
  the normaliser: the attention of the specification.
-/
import proofs.«166922_j87754771792527_2_alg».proof.Proof.Cases
import proofs.«166922_j87754771792527_2_alg».proof.Proof.Blocks
import proofs.«166922_j87754771792527_2_alg».proof.Proof.LibOnlineSoftmax

noncomputable section

open Idealize.ShloMosaic Idealize.ShloMosaic.TcCoe Idealize.SL.Sem

namespace Cert.KernelIdeal.Invariant

open Cert.KernelIdeal Cert.KernelIdeal.Gen Idealize.ShloMosaic.ValueIdx Cert.AttnSpec Cert.AttnValue
open Cert.KernelIdeal.Step Cert.KernelIdeal.Cases Cert.KernelIdeal.Blocks

variable (m : (ℓ : Loc nD τ sig) → Buf (Elt Ideal) ℓ) (c : Dev nD)

/-- Row "q"'s scores in batch "b", block by block, and column "d" of the masked values, of the argument arrays. -/
abbrev rowS (b : Fin 8) (q : Fin 2048) : ℕ → Fin 512 → EReal :=
  blockScores (m ((c : Thread nD τ).loc main_arg0)) (m ((c : Thread nD τ).loc main_arg1)) (m ((c : Thread nD τ).loc main_arg3)) (m ((c : Thread nD τ).loc main_arg4)) b q
abbrev colV (b : Fin 8) (d : Fin 64) : ℕ → Fin 512 → EReal :=
  blockValues (m ((c : Thread nD τ).loc main_arg2)) (m ((c : Thread nD τ).loc main_arg5)) b d

/-- The block of scores the point computes is block "n % 4" of the row's scores in batch "n / 4". -/
theorem scores_at (t : Fin cfg0.N) (q : Fin 2048) :
    sblk (iblk m c 0 t) (iblk m c 1 t) (iblk m c 3 t) (iblk m c 4 t) q = rowS m c (bOf t) q (t.val % 4) :=
  sblk_eq_blockScores (iblk m c 0 t) (iblk m c 1 t) (iblk m c 3 t) (iblk m c 4 t) (m ((c : Thread nD τ).loc main_arg0)) (m ((c : Thread nD τ).loc main_arg1)) (m ((c : Thread nD τ).loc main_arg3)) (m ((c : Thread nD τ).loc main_arg4)) (bOf t) (jOf t) q
    (fun q d => iblk0_apply m c t q d) (fun k d => iblk1_apply m c t k d) (fun q => iblk3_apply m c t q) (fun k => iblk4_apply m c t k)

theorem values_at (t : Fin cfg0.N) (d : Fin 64) :
    vblk (iblk m c 2 t) (iblk m c 5 t) d = colV m c (bOf t) d (t.val % 4) :=
  vblk_eq_blockValues (iblk m c 2 t) (iblk m c 5 t) (m ((c : Thread nD τ).loc main_arg2)) (m ((c : Thread nD τ).loc main_arg5)) (bOf t) (jOf t) d
    (fun k d => iblk2_apply m c t k d) (fun k => iblk5_apply m c t k)

/-- The batch of a point. -/
def batch (n : ℕ) (h : n < cfg0.N) : Fin 8 := ⟨n / 4, by have := lt_of_lt_of_eq h (show cfg0.N = 32 from N_0); omega⟩

theorem bOf_eq (n : ℕ) (h : n < cfg0.N) : bOf (⟨n, h⟩ : Fin cfg0.N) = batch n h := Fin.ext rfl

/-- THE INVARIANT: after point "n" the carried buffers hold the running merge after "n % 4 + 1" blocks. -/
theorem carried : ∀ (n : ℕ) (h : n < cfg0.N) (q : Fin 2048),
    (outsAt0 m c n h).2.1 (ix3 (0 : Fin 1) q (0 : Fin 1)) = (st (rowS m c (batch n h) q) (n % 4 + 1)).1
    ∧ (outsAt0 m c n h).2.2.1 (ix3 (0 : Fin 1) q (0 : Fin 1)) = (st (rowS m c (batch n h) q) (n % 4 + 1)).2
    ∧ ∀ d : Fin 64, (outsAt0 m c n h).2.2.2 (ix3 (0 : Fin 1) q d)
        = acc (rowS m c (batch n h) q) (colV m c (batch n h) d) (n % 4 + 1) := by
  intro n
  induction n with
  | zero =>
    intro h q
    obtain ⟨e1, e2, e3⟩ := first_block m c ⟨0, h⟩ (Nat.zero_mod 4) (by show ¬(0 : ℕ) % 4 = 3; omega) q
    rw [scores_at m c ⟨0, h⟩ q, bOf_eq] at e1 e2 e3
    refine ⟨e1, e2, fun d => ?_⟩
    have e3d := e3 d
    rw [values_at m c ⟨0, h⟩ d, bOf_eq] at e3d
    exact e3d
  | succ k ih =>
    intro h q
    have hN : k + 1 < 32 := lt_of_lt_of_eq h (show cfg0.N = 32 from N_0)
    by_cases h0 : (k + 1) % 4 = 0
    · obtain ⟨e1, e2, e3⟩ := first_block m c ⟨k + 1, h⟩ h0 (by show ¬(k + 1) % 4 = 3; omega) q
      rw [scores_at m c ⟨k + 1, h⟩ q, bOf_eq] at e1 e2 e3
      have hj : (k + 1) % 4 = 0 := h0
      refine ⟨?_, ?_, fun d => ?_⟩
      · rw [e1]; show mNext ⊥ (rowS m c (batch (k + 1) h) q ((k + 1) % 4)) = _; rw [hj]; rfl
      · rw [e2]; show lNext ⊥ 0 (rowS m c (batch (k + 1) h) q ((k + 1) % 4)) = _; rw [hj]; rfl
      · have e3d := e3 d
        rw [values_at m c ⟨k + 1, h⟩ d, bOf_eq] at e3d
        rw [e3d]
        show accNext ⊥ 0 (rowS m c (batch (k + 1) h) q ((k + 1) % 4)) (colV m c (batch (k + 1) h) d ((k + 1) % 4)) = _
        rw [hj]; rfl
    · obtain ⟨p1, p2, p3⟩ := ih (Nat.lt_of_succ_lt h) q
      obtain ⟨e1, e2, e3⟩ := later_block m c ⟨k + 1, h⟩ h0 q
      rw [scores_at m c ⟨k + 1, h⟩ q, bOf_eq] at e1 e2 e3
      have hb : batch k (Nat.lt_of_succ_lt h) = batch (k + 1) h := Fin.ext (by show k / 4 = (k + 1) / 4; omega)
      have hj : (k + 1) % 4 = k % 4 + 1 := by omega
      rw [hb] at p1 p2 p3
      change _ = mNext ((outsAt0 m c k _).2.1 _) _ at e1
      change _ = lNext ((outsAt0 m c k _).2.1 _) ((outsAt0 m c k _).2.2.1 _) _ at e2
      rw [p1] at e1
      rw [p1, p2] at e2
      refine ⟨?_, ?_, fun d => ?_⟩
      · rw [e1]; show _ = (st (rowS m c (batch (k + 1) h) q) ((k + 1) % 4 + 1)).1
        rw [hj]; rfl
      · rw [e2]; show _ = (st (rowS m c (batch (k + 1) h) q) ((k + 1) % 4 + 1)).2
        rw [hj]; rfl
      · have e3d := e3 d
        rw [values_at m c ⟨k + 1, h⟩ d, bOf_eq] at e3d
        change _ = accNext ((outsAt0 m c k _).2.1 _) ((outsAt0 m c k _).2.2.2 _) _ _ at e3d
        rw [p1, p3 d] at e3d
        rw [e3d]; show _ = acc (rowS m c (batch (k + 1) h) q) (colV m c (batch (k + 1) h) d) ((k + 1) % 4 + 1)
        rw [hj]; rfl

/-- After the last key block of a batch the output block is the attention of the specification. -/
theorem output_block (t : Fin cfg0.N) (h3 : t.val % 4 = 3) (q : Fin 2048) (d : Fin 64) :
    (outsAt0 m c t.val t.isLt).1 (ix3 (0 : Fin 1) q d)
      = attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (bOf t) q d) := by
  rw [last_block_out m c t (by omega) h3 q d]
  obtain ⟨_, p2, p3⟩ := carried m c t.val t.isLt q
  rw [p2, p3 d, h3]
  rfl

end Cert.KernelIdeal.Invariant

end
-- ==== Proof.AttnRun.lean ====
/-
  The attention kernel's run: its result array ends at the attention of the specification.

  The output array [8, 2048, 64] is written back one batch at a time, after the last key block of the batch, and the
  eight blocks cover it; each block written is the specification's attention on that batch (the invariant of the
  carried buffers). The six argument arrays end as they were launched.
-/
import proofs.«166922_j87754771792527_2_alg».proof.Proof.Invariant
import proofs.«166922_j87754771792527_2_alg».proof.Proof.Blocks
import proofs.«166922_j87754771792527_2_alg».proof.Proof.Gen.KernelIdeal.Value

noncomputable section

open Idealize.ShloMosaic Idealize.ShloMosaic.TcCoe Idealize.SL.Sem

namespace Cert.KernelIdeal.AttnRun

open Cert.KernelIdeal Cert.KernelIdeal.Gen Idealize.ShloMosaic.ValueIdx Cert.AttnValue

variable (m : (ℓ : Loc nD τ sig) → Buf (Elt Ideal) ℓ) (ρ : Dev nD → PrngReg)

/-- The result array after the run. -/
theorem final (c : Dev nD) :
    (dats m 0 c).arrAt 6 cfg0.N = attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Blocks.final6 m c (attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (fun t h3 q d => Invariant.output_block m c t h3 q d)

/-- Every weakly fair execution of the kernel's program terminates with the result array at the attention of the six
    argument arrays, and the arguments unchanged. -/
theorem run : θ_run defs (onTc (τ := τ) (main (F := Ideal))) ⟨m, fun _ => 0, ρ⟩ fun r => ∀ c : Dev nD,
      r.2.mem ((c : Thread nD τ).loc main_v3) = attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.AttnRun

end
-- ==== Proof.lean ====
/-
  The certificate of a blocked ("online softmax") attention kernel against softmax attention written plainly.

  Both programs take queries, keys and values of shape [8, 2048, 64] and three masks of shape [8, 2048]. The score of a
  query row against a key row is their dot product scaled by one over the square root of 64, plus "(1 - mq * mk)" times
  minus 10^9; the result is the softmax over the keys of the scores, applied to the values masked by "mv". The
  reference takes the row maximum, the exponentials, their sum, the quotients and the weighted sum over all 2048 keys
  at once. The kernel passes the keys in four blocks of 512 and keeps a running maximum, a running normaliser and a
  running weighted sum, rescaling what it has accumulated whenever the maximum grows, and divides at the end.

  Over the extended reals, with every input finite, the two are one function:
   * the kernel's run ends at the running merge after four blocks, divided by its normaliser (the carried buffers'
     invariant, by induction over the grid points; no finiteness is needed for this);
   * the reference's run ends at the softmax-weighted sum over the whole row;
   * with finite inputs every score is a real number, the running merge is the softmax-weighted sum (each rescaling
     is "exp (M - M') * exp (a - M) = exp (a - M')"), one eighth is the reciprocal of the square root of 64, and the
     quotient by the positive normaliser distributes over the sum.
  The three frames are the generated ones (the reference's is its generated run with the result dropped); the
  idealization rewrote nothing, so its claim is trivial.
-/
import proofs.«166922_j87754771792527_2_alg».proof.Defs
import proofs.«166922_j87754771792527_2_alg».proof.Proof.Gen.Kernel
import proofs.«166922_j87754771792527_2_alg».proof.Proof.Gen.Kernel.Skeleton
import proofs.«166922_j87754771792527_2_alg».proof.Proof.Gen.Kernel.Launch
import proofs.«166922_j87754771792527_2_alg».proof.Proof.Gen.Kernel.Points
import proofs.«166922_j87754771792527_2_alg».proof.Proof.Gen.Kernel.Frame
import proofs.«166922_j87754771792527_2_alg».proof.Proof.Gen.KernelIdeal
import proofs.«166922_j87754771792527_2_alg».proof.Proof.Gen.KernelIdeal.Skeleton
import proofs.«166922_j87754771792527_2_alg».proof.Proof.Gen.KernelIdeal.Launch
import proofs.«166922_j87754771792527_2_alg».proof.Proof.Gen.KernelIdeal.Points
import proofs.«166922_j87754771792527_2_alg».proof.Proof.Gen.KernelIdeal.Frame
import proofs.«166922_j87754771792527_2_alg».proof.Proof.Gen.ReferenceIdeal
import proofs.«166922_j87754771792527_2_alg».proof.Proof.Gen.Pre_finite_inputs
import proofs.«166922_j87754771792527_2_alg».proof.Proof.Gen.KernelIdeal.Value
import proofs.«166922_j87754771792527_2_alg».proof.Proof.Gen.ReferenceIdeal.Run
import proofs.«166922_j87754771792527_2_alg».proof.Proof.Gen.ReferenceIdeal.Read
import proofs.«166922_j87754771792527_2_alg».proof.Proof.Claims
import proofs.«166922_j87754771792527_2_alg».proof.Proof.AttnRun
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.AttnClaims.frame_k, Cert.Proof.AttnClaims.frame_ki, Cert.Proof.AttnClaims.frame_ri, Cert.Proof.AttnClaims.preserves,
  Cert.Proof.AttnClaims.algebraic_of_run (fun m ρ => Cert.KernelIdeal.AttnRun.run m ρ)⟩

end Cert.Proof

end
